-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S3x256x256 : Shape := ⟨3, ![3, 256, 256]⟩
abbrev S3x256 : Shape := ⟨2, ![3, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_

variable [Facts]

def fn_part1 {F : FTy → Type} [FloatOps F] (main_arg5 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S800000 .f32) (main_arg3 : FVec F S3x256x256 .f32) (main_arg4 : FVec F S3x256x256 .f32) (main_arg5 : FVec F S3x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S3x256x256 : Shape := ⟨3, ![3, 256, 256]⟩
abbrev S3x256 : Shape := ⟨2, ![3, 256]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S2000x256 : Shape := ⟨2, ![2000, 256]⟩
abbrev S800000x256 : Shape := ⟨2, ![800000, 256]⟩

abbrev nBuf : Space → Nat
  | .hbm => 126
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S3x256x256, .f32⟩
  | .hbm, ⟨4, _⟩ => ⟨S3x256x256, .f32⟩
  | .hbm, ⟨5, _⟩ => ⟨S3x256, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S1x256x256, .f32⟩
  | .hbm, ⟨43, _⟩ => ⟨S256x256, .f32⟩
  | .hbm, ⟨44, _⟩ => ⟨S1x256x256, .f32⟩
  | .hbm, ⟨45, _⟩ => ⟨S256x256, .f32⟩
  | .hbm, ⟨46, _⟩ => ⟨S1x256, .f32⟩
  | .hbm, ⟨47, _⟩ => ⟨S256, .f32⟩
  | .hbm, ⟨48, _⟩ => ⟨S50000x256, .f32⟩
  | .hbm, ⟨49, _⟩ => ⟨S50000x256, .f32⟩
  | .hbm, ⟨50, _⟩ => ⟨S800000x1, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S800000x256, .f32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S1x256x256, .f32⟩
  | .hbm, ⟨71, _⟩ => ⟨S256x256, .f32⟩
  | .hbm, ⟨72, _⟩ => ⟨S1x256x256, .f32⟩
  | .hbm, ⟨73, _⟩ => ⟨S256x256, .f32⟩
  | .hbm, ⟨74, _⟩ => ⟨S1x256, .f32⟩
  | .hbm, ⟨75, _⟩ => ⟨S256, .f32⟩
  | .hbm, ⟨76, _⟩ => ⟨S50000x256, .f32⟩
  | .hbm, ⟨77, _⟩ => ⟨S50000x256, .f32⟩
  | .hbm, ⟨78, _⟩ => ⟨S800000x1, .f32⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x256, .f32⟩
  | .hbm, ⟨88, _⟩ => ⟨S800000x256, .f32⟩
  | .hbm, ⟨89, _⟩ => ⟨S800000x256, .f32⟩
  | .hbm, ⟨90, _⟩ => ⟨S_, .f32⟩
  | .hbm, ⟨91, _⟩ => ⟨S50000x256, .f32⟩
  | .hbm, ⟨92, _⟩ => ⟨S800000x1, .i32⟩
  | .hbm, ⟨93, _⟩ => ⟨S50000x256, .f32⟩
  | .hbm, ⟨94, _⟩ => ⟨S50000x256, .f32⟩
  | .hbm, ⟨95, _⟩ => ⟨S_, .f32⟩
  | .hbm, ⟨96, _⟩ => ⟨S50000x256, .f32⟩
  | .hbm, ⟨97, _⟩ => ⟨S50000x256, .f32⟩
  | .hbm, ⟨98, _⟩ => ⟨S1x256x256, .f32⟩
  | .hbm, ⟨99, _⟩ => ⟨S256x256, .f32⟩
  | .hbm, ⟨100, _⟩ => ⟨S1x256x256, .f32⟩
  | .hbm, ⟨101, _⟩ => ⟨S256x256, .f32⟩
  | .hbm, ⟨102, _⟩ => ⟨S1x256, .f32⟩
  | .hbm, ⟨103, _⟩ => ⟨S256, .f32⟩
  | .hbm, ⟨104, _⟩ => ⟨S50000x256, .f32⟩
  | .hbm, ⟨105, _⟩ => ⟨S50000x256, .f32⟩
  | .hbm, ⟨106, _⟩ => ⟨S800000x1, .f32⟩
  | .hbm, ⟨107, _⟩ => ⟨S_, .i32⟩
  | .hbm, ⟨108, _⟩ => ⟨S800000, .i32⟩
  | .hbm, ⟨109, _⟩ => ⟨S800000, .i1⟩
  | .hbm, ⟨110, _⟩ => ⟨S_, .i32⟩
  | .hbm, ⟨111, _⟩ => ⟨S800000, .i32⟩
  | .hbm, ⟨112, _⟩ => ⟨S800000, .i32⟩
  | .hbm, ⟨113, _⟩ => ⟨S800000, .i32⟩
  | .hbm, ⟨114, _⟩ => ⟨S800000x1, .i32⟩
  | .hbm, ⟨115, _⟩ => ⟨S800000x256, .f32⟩
  | .hbm, ⟨116, _⟩ => ⟨S800000x256, .f32⟩
  | .hbm, ⟨117, _⟩ => ⟨S800000x256, .f32⟩
  | .hbm, ⟨118, _⟩ => ⟨S_, .f32⟩
  | .hbm, ⟨119, _⟩ => ⟨S50000x256, .f32⟩
  | .hbm, ⟨120, _⟩ => ⟨S800000x1, .i32⟩
  | .hbm, ⟨121, _⟩ => ⟨S50000x256, .f32⟩
  | .hbm, ⟨122, _⟩ => ⟨S50000x256, .f32⟩
  | .hbm, ⟨123, _⟩ => ⟨S_, .f32⟩
  | .hbm, ⟨124, _⟩ => ⟨S50000x256, .f32⟩
  | .hbm, ⟨125, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x256, .f32⟩
  | .local _ .vmem, ⟨12, _⟩ => ⟨S256x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S256x256, .f32⟩
  | .local _ .vmem, ⟨22, _⟩ => ⟨S256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev main_v56 : Ref sig .tc := ⟨.hbm, 78, rfl⟩
abbrev main_c_8 : Ref sig .tc := ⟨.hbm, 79, rfl⟩
abbrev main_v57 : Ref sig .tc := ⟨.hbm, 80, rfl⟩
abbrev main_v58 : Ref sig .tc := ⟨.hbm, 81, rfl⟩
abbrev main_c_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call2_cst : Ref sig .tc := ⟨.hbm, 95, rfl⟩
abbrev main_call2_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77_0 : Ref sig .tc := ⟨.hbm, 104, rfl⟩
abbrev main_v77_1 : Ref sig .tc := ⟨.hbm, 105, rfl⟩
abbrev main_v78 : Ref sig .tc := ⟨.hbm, 106, rfl⟩
abbrev main_c_11 : Ref sig .tc := ⟨.hbm, 107, rfl⟩
abbrev main_v79 : Ref sig .tc := ⟨.hbm, 108, rfl⟩
abbrev main_v80 : Ref sig .tc := ⟨.hbm, 109, rfl⟩
abbrev main_c_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_13 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_call3_cst : Ref sig .tc := ⟨.hbm, 123, rfl⟩
abbrev main_call3_v0 : Ref sig .tc := ⟨.hbm, 124, rfl⟩
abbrev main_v92 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  shapeCasts_S1x256_S1x256 : S1x256.ShapeCasts S1x256
  broadcasts_S1x256_S2000x256 : S1x256.Broadcasts S2000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S3x256x256_S1x256x256_1_0_0 : S3x256x256.Slices ![1, 0, 0] S1x256x256
  slices_S3x256_S1x256_1_0 : S3x256.Slices ![1, 0] S1x256
  shapeCasts_S2000x256_S2000x256 : S2000x256.ShapeCasts S2000x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v55_1) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v77_1) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S3x256x256 : Shape := ⟨3, ![3, 256, 256]⟩
abbrev S3x256 : Shape := ⟨2, ![3, 256]⟩
abbrev S1x800000 : Shape := ⟨2, ![1, 800000]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S800000x256 : Shape := ⟨2, ![800000, 256]⟩

abbrev nBuf : Space → Nat
  | .hbm => 199
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S3x256x256, .f32⟩
  | 4 => ⟨S3x256x256, .f32⟩
  | 5 => ⟨S3x256, .f32⟩
  | 6 => ⟨S1x800000, .i32⟩
  | 7 => ⟨S800000, .i32⟩
  | 8 => ⟨S1x800000, .i32⟩
  | 9 => ⟨S800000, .i32⟩
  | 10 => ⟨S1x256x256, .f32⟩
  | 11 => ⟨S256x256, .f32⟩
  | 12 => ⟨S1x256x256, .f32⟩
  | 13 => ⟨S256x256, .f32⟩
  | 14 => ⟨S1x256, .f32⟩
  | 15 => ⟨S256, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S50000x256, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S1x256x256, .f32⟩
  | 74 => ⟨S256x256, .f32⟩
  | 75 => ⟨S1x256x256, .f32⟩
  | 76 => ⟨S256x256, .f32⟩
  | 77 => ⟨S1x256, .f32⟩
  | 78 => ⟨S256, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S50000x256, .f32⟩
  | 112 => ⟨S800000x1, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x256, .f32⟩
  | 122 => ⟨S800000x256, .f32⟩
  | 123 => ⟨S800000x256, .f32⟩
  | 124 => ⟨S_, .f32⟩
  | 125 => ⟨S50000x256, .f32⟩
  | 126 => ⟨S800000x1, .i32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S1x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S1x256x256, .f32⟩
  | 9 => ⟨S256x256, .f32⟩
  | 10 => ⟨S1x256x256, .f32⟩
  | 11 => ⟨S256x256, .f32⟩
  | 12 => ⟨S1x256, .f32⟩
  | 13 => ⟨S256, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000x256, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_cst : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_9 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_10 : Ref sig .tc := ⟨.hbm, 87, rfl⟩
abbrev main_call2_v0 : Ref sig .tc := ⟨.hbm, 88, rfl⟩
abbrev main_call2_v1 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_13 : Ref sig .tc := ⟨.hbm, 101, rfl⟩
abbrev main_v74 : Ref sig .tc := ⟨.hbm, 102, rfl⟩
abbrev main_v75 : Ref sig .tc := ⟨.hbm, 103, rfl⟩
abbrev main_c_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_15 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call3_cst : Ref sig .tc := ⟨.hbm, 133, rfl⟩
abbrev main_call3_v0 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_18 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_19 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_20 : Ref sig .tc := ⟨.hbm, 150, rfl⟩
abbrev main_call4_v0 : Ref sig .tc := ⟨.hbm, 151, rfl⟩
abbrev main_call4_v1 : Ref sig .tc := ⟨.hbm, 152, rfl⟩
abbrev main_v114 : Ref sig .tc := ⟨.hbm, 153, rfl⟩
abbrev main_c_21 : Ref sig .tc := ⟨.hbm, 154, rfl⟩
abbrev main_v115 : Ref sig .tc := ⟨.hbm, 155, rfl⟩
abbrev main_v116 : Ref sig .tc := ⟨.hbm, 156, rfl⟩
abbrev main_c_22 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_c_23 : Ref sig .tc := ⟨.hbm, 164, rfl⟩
abbrev main_v123 : Ref sig .tc := ⟨.hbm, 165, rfl⟩
abbrev main_v124 : Ref sig .tc := ⟨.hbm, 166, rfl⟩
abbrev main_c_24 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_25 : Ref sig .tc := ⟨.hbm, 176, rfl⟩
abbrev main_v133 : Ref sig .tc := ⟨.hbm, 177, rfl⟩
abbrev main_v134 : Ref sig .tc := ⟨.hbm, 178, rfl⟩
abbrev main_c_26 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_27 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_call5_cst : Ref sig .tc := ⟨.hbm, 196, rfl⟩
abbrev main_call5_v0 : Ref sig .tc := ⟨.hbm, 197, rfl⟩
abbrev main_v150 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The idealized kernel's run, with its result named.

  The program is eleven stretches of host operations around three launches of the dense kernel.  Every weakly fair
  execution terminates, without a fault, with every buffer that outlives the launches at the contents obtained by
  folding the stretches and the launches' write-backs over the memory at launch; here that is read at the result buffer
  and at the six argument buffers.
-/
import proofs.«104222_j79053168050941_1_alg».proof.Proof.Gen.KernelIdeal.Frame

set_option maxRecDepth 16384

noncomputable section

namespace Cert.Arma.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v92) = W14 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v92 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.Arma.KernelRun

end
-- ==== Proof.Spec.lean ====
/-
  Three stacked graph-convolution layers on 50000 nodes with 256 features and 800000 weighted edges.

  One layer sends the node features x to
      relu( A · (x · W_init)  +  x · W_root  +  b ),
  where A is the edge-normalised adjacency: row dst of A · h is the sum over the edges e into dst of
  norm(e) · h(src(e)), with norm(e) = dinv(src e) · w(e) · dinv(dst e), dinv = 1/sqrt(deg) where the weighted
  in-degree deg is positive and 0 elsewhere.  The sum over edges, the row look-ups and the normalisation are the same
  host operations in both programs, so they are carried here as named functions that are never opened.

  The two programs differ in two places only.  One computes the two matrix products and adds the bias on blocks of
  2000 rows, and so adds   A·h + (x·W_root + b)   where the other adds   (A·h + x·W_root) + b  — equal because
  addition of extended reals is associative.  And one computes norm once where the other computes the same
  expression once per layer.
-/
import proofs.«104222_j79053168050941_1_alg».proof.Proof.Gen.ReferenceIdeal
import Idealize.ShloMosaic.PureOps.Ideal

noncomputable section

namespace Cert.Arma

open Idealize.ShloMosaic Cert.ReferenceIdeal Cert.ReferenceIdeal.Gen

variable {F : FTy → Type} [FloatOps F]

/-- The source node of every edge: row 0 of the edge list. -/
def srcOf (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The target node of every edge: row 1 of the edge list. -/
def dstOf (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- Node numbers as a column of start positions for a row look-up, a negative number counted from the end. -/
def wrapCol (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Node numbers as a column of segment numbers for a sum over edges. -/
def segCol (idx : (⟨S800000, .i32⟩ : BufTy).Contents (Elt F)) : (⟨S800000x1, .i32⟩ : BufTy).Contents (Elt F) :=
  broadcastInDim S800000x1 ![0] bcast_S800000_S800000x1_0 idx

/-- The weighted in-degree of every node. -/
def degOf (dst : (⟨S800000, .i32⟩ : BufTy).Contents (Elt F)) (w : (⟨S800000, .f32⟩ : BufTy).Contents (Elt F)) :
    (⟨S50000, .f32⟩ : BufTy).Contents (Elt F) :=
  Host.scatterAdd scatter_S50000_S800000x1_S800000_n_0_0_1
    (broadcastInDim S50000 ![] bcast_S_S50000 (constant (F := F) S_ .f32 0x00000000#32)) (segCol dst) w

/-- 1/sqrt(deg) where deg > 0, and 0 elsewhere. -/
def dinvOf (dst : (⟨S800000, .i32⟩ : BufTy).Contents (Elt F)) (w : (⟨S800000, .f32⟩ : BufTy).Contents (Elt F)) :
    (⟨S50000, .f32⟩ : BufTy).Contents (Elt F) :=
  select (cmpf .ogt (degOf dst w) (broadcastInDim S50000 ![] bcast_S_S50000 (constant (F := F) S_ .f32 0x00000000#32)))
    (Host.rsqrt (degOf dst w))
    (broadcastInDim S50000 ![] bcast_S_S50000 (id (constant (F := F) S_ .f32 0x00000000#32)))

/-- The weight of every edge after normalisation: dinv(src) · w · dinv(dst). -/
def normOf (src dst : (⟨S800000, .i32⟩ : BufTy).Contents (Elt F)) (w : (⟨S800000, .f32⟩ : BufTy).Contents (Elt F)) :
    (⟨S800000, .f32⟩ : BufTy).Contents (Elt F) :=
  mulf (mulf (Host.gather gather_S50000_S800000x1_S800000_n_0_n_n_0_1_1 (dinvOf dst w) (wrapCol src)) w)
    (Host.gather gather_S50000_S800000x1_S800000_n_0_n_n_0_1_1 (dinvOf dst w) (wrapCol dst))

/-- The messages summed into their target nodes: row n is the sum over the edges e into n of norm(e) · h(src e). -/
def agg (src dst : (⟨S800000, .i32⟩ : BufTy).Contents (Elt F)) (norm : (⟨S800000, .f32⟩ : BufTy).Contents (Elt F))
    (h : (⟨S50000x256, .f32⟩ : BufTy).Contents (Elt F)) : (⟨S50000x256, .f32⟩ : BufTy).Contents (Elt F) :=
  Host.scatterAdd scatter_S50000x256_S800000x1_S800000x256_1_0_0_1
    (broadcastInDim S50000x256 ![] bcast_S_S50000x256 (constant (F := F) S_ .f32 0x00000000#32)) (segCol dst)
    (mulf (broadcastInDim S800000x256 ![0, 1] bcast_S800000x1_S800000x256_0_1
        (broadcastInDim S800000x1 ![0] bcast_S800000_S800000x1_0 norm))
      (Host.gather gather_S50000x256_S800000x1_S800000x256_1_0_n_n_0_1_1256 h (wrapCol src)))

/-- max(·, 0) entry by entry. -/
def relu (a : (⟨S50000x256, .f32⟩ : BufTy).Contents (Elt F)) : (⟨S50000x256, .f32⟩ : BufTy).Contents (Elt F) :=
  maximumf a (broadcastInDim S50000x256 ![] bcast_S_S50000x256 (constant (F := F) S_ .f32 0x00000000#32))

/-- The product x · W of the node features with a 256 × 256 weight. -/
def prod (x : (⟨S50000x256, .f32⟩ : BufTy).Contents (Elt F)) (W : (⟨S256x256, .f32⟩ : BufTy).Contents (Elt F)) :
    (⟨S50000x256, .f32⟩ : BufTy).Contents (Elt F) :=
  Host.dotGeneral dot_S50000x256_S256x256_S50000x256_1_0_0_1_n_n none x W

/-- A bias of length 256 laid along every row. -/
def biasRows (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- One layer with the bias added to x · W_root first. -/
def layer (src dst : (⟨S800000, .i32⟩ : BufTy).Contents (Elt F)) (norm : (⟨S800000, .f32⟩ : BufTy).Contents (Elt F))
    (x : (⟨S50000x256, .f32⟩ : BufTy).Contents (Elt F)) (Wi Wr : (⟨S256x256, .f32⟩ : BufTy).Contents (Elt F))
    (b : (⟨S256, .f32⟩ : BufTy).Contents (Elt F)) : (⟨S50000x256, .f32⟩ : BufTy).Contents (Elt F) :=
  relu (addf (agg src dst norm (prod x Wi)) (addf (prod x Wr) (biasRows b)))

/-- One layer with the bias added last. -/
def layerBiasLast (src dst : (⟨S800000, .i32⟩ : BufTy).Contents (Elt F)) (norm : (⟨S800000, .f32⟩ : BufTy).Contents (Elt F))
    (x : (⟨S50000x256, .f32⟩ : BufTy).Contents (Elt F)) (Wi Wr : (⟨S256x256, .f32⟩ : BufTy).Contents (Elt F))
    (b : (⟨S256, .f32⟩ : BufTy).Contents (Elt F)) : (⟨S50000x256, .f32⟩ : BufTy).Contents (Elt F) :=
  relu (addf (addf (agg src dst norm (prod x Wi)) (prod x Wr)) (biasRows b))

/-- Sums of three arrays of extended reals do not depend on the grouping. -/
theorem addf_assoc_ideal {S : Shape} (a b c : FVec Ideal S .f32) : addf (addf a b) c = addf a (addf b c) := by
  funext i
  show ((a i + b i) + c i : EReal) = a i + (b i + c i)
  exact add_assoc _ _ _

/-- The two groupings of one layer agree on the extended reals. -/
theorem layerBiasLast_eq (src dst : (⟨S800000, .i32⟩ : BufTy).Contents (Elt Ideal)) (norm : (⟨S800000, .f32⟩ : BufTy).Contents (Elt Ideal))
    (x : (⟨S50000x256, .f32⟩ : BufTy).Contents (Elt Ideal)) (Wi Wr : (⟨S256x256, .f32⟩ : BufTy).Contents (Elt Ideal))
    (b : (⟨S256, .f32⟩ : BufTy).Contents (Elt Ideal)) :
    layerBiasLast src dst norm x Wi Wr b = layer src dst norm x Wi Wr b := by
  unfold layerBiasLast layer
  exact congrArg relu (addf_assoc_ideal _ _ _)

/-- Layer k's 256 × 256 weight out of the stack of three. -/
def slab0 (A : (⟨S3x256x256, .f32⟩ : BufTy).Contents (Elt F)) : (⟨S256x256, .f32⟩ : BufTy).Contents (Elt F) :=
  shapeCast _ (extractStridedSlice S1x256x256 ![0, 0, 0] A slices_S3x256x256_S1x256x256_0_0_0) shapeCasts_S1x256x256_S256x256
def slab1 (A : (⟨S3x256x256, .f32⟩ : BufTy).Contents (Elt F)) : (⟨S256x256, .f32⟩ : BufTy).Contents (Elt F) :=
  shapeCast _ (extractStridedSlice S1x256x256 ![1, 0, 0] A slices_S3x256x256_S1x256x256_1_0_0) shapeCasts_S1x256x256_S256x256
def slab2 (A : (⟨S3x256x256, .f32⟩ : BufTy).Contents (Elt F)) : (⟨S256x256, .f32⟩ : BufTy).Contents (Elt F) :=
  shapeCast _ (extractStridedSlice S1x256x256 ![2, 0, 0] A slices_S3x256x256_S1x256x256_2_0_0) shapeCasts_S1x256x256_S256x256

/-- Layer k's bias out of the stack of three. -/
def row0 (B : (⟨S3x256, .f32⟩ : BufTy).Contents (Elt F)) : (⟨S256, .f32⟩ : BufTy).Contents (Elt F) :=
  shapeCast _ (extractStridedSlice S1x256 ![0, 0] B slices_S3x256_S1x256_0_0) shapeCasts_S1x256_S256
def row1 (B : (⟨S3x256, .f32⟩ : BufTy).Contents (Elt F)) : (⟨S256, .f32⟩ : BufTy).Contents (Elt F) :=
  shapeCast _ (extractStridedSlice S1x256 ![1, 0] B slices_S3x256_S1x256_1_0) shapeCasts_S1x256_S256
def row2 (B : (⟨S3x256, .f32⟩ : BufTy).Contents (Elt F)) : (⟨S256, .f32⟩ : BufTy).Contents (Elt F) :=
  shapeCast _ (extractStridedSlice S1x256 ![2, 0] B slices_S3x256_S1x256_2_0) shapeCasts_S1x256_S256

/-- The three layers, one after the other, over one normalisation of the edges. -/
def net (x : (⟨S50000x256, .f32⟩ : BufTy).Contents (Elt F)) (ei : (⟨S2x800000, .i32⟩ : BufTy).Contents (Elt F))
    (w : (⟨S800000, .f32⟩ : BufTy).Contents (Elt F)) (Wi Wr : (⟨S3x256x256, .f32⟩ : BufTy).Contents (Elt F))
    (B : (⟨S3x256, .f32⟩ : BufTy).Contents (Elt F)) : (⟨S50000x256, .f32⟩ : BufTy).Contents (Elt F) :=
  let src := srcOf ei
  let dst := dstOf ei
  let norm := normOf src dst w
  layer src dst norm
    (layer src dst norm
      (layer src dst norm x (slab0 Wi) (slab0 Wr) (row0 B))
      (slab1 Wi) (slab1 Wr) (row1 B))
    (slab2 Wi) (slab2 Wr) (row2 B)

/-! ## The same functions, cut where the host program cuts them -/

/-- The test deg > 0 at every node. -/
def posOf (dst : (⟨S800000, .i32⟩ : BufTy).Contents (Elt F)) (w : (⟨S800000, .f32⟩ : BufTy).Contents (Elt F)) :
    (⟨S50000, .i1⟩ : BufTy).Contents (Elt F) :=
  cmpf .ogt (degOf dst w) (broadcastInDim S50000 ![] bcast_S_S50000 (constant (F := F) S_ .f32 0x00000000#32))

/-- 1/sqrt(deg) at every node, whatever its sign. -/
def rsqrtDegOf (dst : (⟨S800000, .i32⟩ : BufTy).Contents (Elt F)) (w : (⟨S800000, .f32⟩ : BufTy).Contents (Elt F)) :
    (⟨S50000, .f32⟩ : BufTy).Contents (Elt F) :=
  Host.rsqrt (degOf dst w)

/-- The choice between 1/sqrt(deg) and the scalar z, node by node. -/
def dinvFrom (pos : (⟨S50000, .i1⟩ : BufTy).Contents (Elt F)) (rs : (⟨S50000, .f32⟩ : BufTy).Contents (Elt F))
    (z : (⟨S_, .f32⟩ : BufTy).Contents (Elt F)) : (⟨S50000, .f32⟩ : BufTy).Contents (Elt F) :=
  select pos rs (broadcastInDim S50000 ![] bcast_S_S50000 (id z))

theorem dinvOf_eq (dst : (⟨S800000, .i32⟩ : BufTy).Contents (Elt F)) (w : (⟨S800000, .f32⟩ : BufTy).Contents (Elt F)) :
    dinvOf dst w = dinvFrom (posOf dst w) (rsqrtDegOf dst w) (constant (F := F) S_ .f32 0x00000000#32) := rfl

/-- The normalised edge weights from the nodes' dinv. -/
def normFrom (dinv : (⟨S50000, .f32⟩ : BufTy).Contents (Elt F)) (src dst : (⟨S800000, .i32⟩ : BufTy).Contents (Elt F))
    (w : (⟨S800000, .f32⟩ : BufTy).Contents (Elt F)) : (⟨S800000, .f32⟩ : BufTy).Contents (Elt F) :=
  mulf (mulf (Host.gather gather_S50000_S800000x1_S800000_n_0_n_n_0_1_1 dinv (wrapCol src)) w)
    (Host.gather gather_S50000_S800000x1_S800000_n_0_n_n_0_1_1 dinv (wrapCol dst))

theorem normOf_eq (src dst : (⟨S800000, .i32⟩ : BufTy).Contents (Elt F)) (w : (⟨S800000, .f32⟩ : BufTy).Contents (Elt F)) :
    normOf src dst w = normFrom (dinvOf dst w) src dst w := rfl

/-- The messages summed into their targets plus a remainder r. -/
def preAct (src dst : (⟨S800000, .i32⟩ : BufTy).Contents (Elt F)) (norm : (⟨S800000, .f32⟩ : BufTy).Contents (Elt F))
    (h r : (⟨S50000x256, .f32⟩ : BufTy).Contents (Elt F)) : (⟨S50000x256, .f32⟩ : BufTy).Contents (Elt F) :=
  addf (agg src dst norm h) r

/-- The messages summed into their targets plus a remainder r, then max(·, 0). -/
def combine (src dst : (⟨S800000, .i32⟩ : BufTy).Contents (Elt F)) (norm : (⟨S800000, .f32⟩ : BufTy).Contents (Elt F))
    (h r : (⟨S50000x256, .f32⟩ : BufTy).Contents (Elt F)) : (⟨S50000x256, .f32⟩ : BufTy).Contents (Elt F) :=
  relu (preAct src dst norm h r)

/-- x · W_root plus the bias along every row. -/
def rootPart (x : (⟨S50000x256, .f32⟩ : BufTy).Contents (Elt F)) (Wr : (⟨S256x256, .f32⟩ : BufTy).Contents (Elt F))
    (b : (⟨S256, .f32⟩ : BufTy).Contents (Elt F)) : (⟨S50000x256, .f32⟩ : BufTy).Contents (Elt F) :=
  addf (prod x Wr) (biasRows b)

theorem layer_eq (src dst : (⟨S800000, .i32⟩ : BufTy).Contents (Elt F)) (norm : (⟨S800000, .f32⟩ : BufTy).Contents (Elt F))
    (x : (⟨S50000x256, .f32⟩ : BufTy).Contents (Elt F)) (Wi Wr : (⟨S256x256, .f32⟩ : BufTy).Contents (Elt F))
    (b : (⟨S256, .f32⟩ : BufTy).Contents (Elt F)) :
    layer src dst norm x Wi Wr b = combine src dst norm (prod x Wi) (rootPart x Wr b) := rfl

end Cert.Arma

end
-- ==== Proof.LibDense.lean ====
/-
  A dense layer read entry by entry, at the exact (extended-real) values.

  A dense layer takes an M × K array x, a K × N weight W and a bias of length N and returns the M × N array whose
  (p, q) entry is  Σ_c x(p, c) · W(c, q) + bias(q).  A kernel computes it on a block of rows with its matrix unit
  (a product accumulated into zeros) and adds the bias laid out as a 1 × N row repeated down the block; a host
  program computes it with a general product of the whole arrays and adds the bias laid out first as a 1 × N row
  and then as an M × N array.  Here both are read at an entry as that one expression, the sum running over the
  contracted coordinate itself.  Also here: a leading axis of extent one dropped or added reads at an entry as the
  same array at the entry with that coordinate left out or set to zero.
-/
import Idealize.ShloMosaic.Lib.ValueIdx
import Idealize.ShloMosaic.Lib.Pipeline.Value
import Idealize.ShloMosaic.Lib.StackMember
import Idealize.ShloMosaic.PureOps.Ideal.Laws

noncomputable section

namespace Cert.Lib.Dense

open Idealize.ShloMosaic Idealize.ShloMosaic.ValueIdx
open scoped BigOperators

variable {M K N : Nat}

/-- Entry (p, q) of x · W with the bias β added to every row:  Σ_c x(p, c) · W(c, q) + β(q). -/
def denseAt (x : (⟨2, ![M, K]⟩ : Shape).Idx → EReal) (W : (⟨2, ![K, N]⟩ : Shape).Idx → EReal) (β : Fin N → EReal)
    (p : Fin M) (q : Fin N) : EReal :=
  (∑ c : Fin K, x (ix2 p c) * W (ix2 c q)) + β q

/-- The M × N array of those entries. -/
def dense (x : (⟨2, ![M, K]⟩ : Shape).Idx → EReal) (W : (⟨2, ![K, N]⟩ : Shape).Idx → EReal) (β : Fin N → EReal) :
    (⟨2, ![M, N]⟩ : Shape).Idx → EReal :=
  fun i => denseAt x W β (i 0) (i 1)

theorem dense_ix2 (x : (⟨2, ![M, K]⟩ : Shape).Idx → EReal) (W : (⟨2, ![K, N]⟩ : Shape).Idx → EReal) (β : Fin N → EReal)
    (p : Fin M) (q : Fin N) : dense x W β (ix2 p q) = denseAt x W β p q := rfl

/-- The product of an M × K by a K × N matrix accumulated into zeros, at (a, b), is the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- A 1 × N row repeated down M rows (a vector broadcast), at (p, q), is the row at q. -/
theorem broadcastTo_row_apply {α : Type} (r : (⟨2, ![1, N]⟩ : Shape).Idx → α)
    (h : (⟨2, ![1, N]⟩ : Shape).Broadcasts ⟨2, ![M, N]⟩) (p : Fin M) (q : Fin N) :
    broadcastTo ⟨2, ![M, N]⟩ r h (ix2 p q) = r (ix2 (0 : Fin 1) q) := by
  refine broadcastTo_apply r h (ix2 p q) (ix2 (0 : Fin 1) q) fun a => ?_
  match a with
  | ⟨0, _⟩ => rfl
  | ⟨1, _⟩ =>
    show q.val = if N = 1 then 0 else q.val
    split
    · have := q.isLt; omega
    · rfl

/-- A 1 × N row laid out as an M × N array (a broadcast along both axes in place), at (p, q), is the row at q. -/
theorem broadcastInDim_row_apply {α : Type} (r : (⟨2, ![1, N]⟩ : Shape).Idx → α)
    (h : (⟨2, ![1, N]⟩ : Shape).BroadcastsInDim ⟨2, ![M, N]⟩ (![0, 1] : Fin 2 → Fin 2)) (p : Fin M) (q : Fin N) :
    broadcastInDim ⟨2, ![M, N]⟩ (![0, 1] : Fin 2 → Fin 2) h r (ix2 p q) = r (ix2 (0 : Fin 1) q) := by
  refine broadcastInDim_apply _ h r (ix2 p q) (ix2 (0 : Fin 1) q) fun a => ?_
  match a with
  | ⟨0, _⟩ => rfl
  | ⟨1, _⟩ =>
    show q.val = if N = 1 then 0 else q.val
    split
    · have := q.isLt; omega
    · rfl

/-- A vector of length N laid out as a 1 × N row, at (0, q), is the vector at q. -/
theorem broadcastInDim_vec_row_apply {α : Type} (v : (⟨1, ![N]⟩ : Shape).Idx → α)
    (h : (⟨1, ![N]⟩ : Shape).BroadcastsInDim ⟨2, ![1, N]⟩ (![1] : Fin 1 → Fin 2)) (q : Fin N) :
    broadcastInDim ⟨2, ![1, N]⟩ (![1] : Fin 1 → Fin 2) h v (ix2 (0 : Fin 1) q) = v (ix1 q) := by
  refine broadcastInDim_apply _ h v (ix2 (0 : Fin 1) q) (ix1 q) fun a => ?_
  match a with
  | ⟨0, _⟩ =>
    show q.val = if N = 1 then 0 else q.val
    split
    · have := q.isLt; omega
    · rfl

/-- A vector of length N reshaped to a 1 × N row, at (0, q), is the vector at q. -/
theorem shapeCast_vec_row_apply {α : Type} (v : (⟨1, ![N]⟩ : Shape).Idx → α)
    (h : (⟨1, ![N]⟩ : Shape).ShapeCasts ⟨2, ![1, N]⟩) (q : Fin N) :
    shapeCast ⟨2, ![1, N]⟩ v h (ix2 (0 : Fin 1) q) = v (ix1 q) := by
  refine shapeCast_apply v h _ _ ?_
  rw [Shape.rowMajor_val_two, Shape.rowMajor_val_one]
  show q.val = 0 * N + q.val
  omega

/-- The host's layer: the general product of the whole arrays, plus the bias laid out as a row and then as an
    array, is the array of dense entries. -/
theorem host_dense_eq {φ₁ φ₂ : FTy} (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (Host.dotGeneral (DotDims.plain M K N) prec x W)
        (broadcastInDim ⟨2, ![M, N]⟩ (![0, 1] : Fin 2 → Fin 2) h2 (broadcastInDim ⟨2, ![1, N]⟩ (![1] : Fin 1 → Fin 2) h1 b))
      = dense x W (fun q => b (ix1 q)) := by
  funext i
  obtain ⟨p, q, rfl⟩ : ∃ (p : Fin M) (q : Fin N), i = ix2 p q := ⟨i 0, i 1, eq_ix2 i⟩
  rw [addf_apply, StackMember.dotGeneral_plain_apply, broadcastInDim_row_apply, broadcastInDim_vec_row_apply]
  rfl

/-- The kernel's layer on a block of rows: the product into zeros plus the bias row repeated down the block, at (p, q),
    is the dense entry. -/
theorem block_dense_apply {φ₁ φ₂ : FTy} (prec : Option ContractPrecision)
    (x : FVec Ideal ⟨2, ![M, K]⟩ φ₁) (W : FVec Ideal ⟨2, ![K, N]⟩ φ₂) (r : FVec Ideal ⟨2, ![1, N]⟩ .f32)
    (h : (⟨2, ![1, N]⟩ : Shape).Broadcasts ⟨2, ![M, N]⟩) (p : Fin M) (q : Fin N) :
    addf (FloatOps.matmul (DotDims.plain M K N) prec x W (constant (F := Ideal) ⟨2, ![M, N]⟩ .f32 0x00000000#32))
        (broadcastTo ⟨2, ![M, N]⟩ r h) (ix2 p q)
      = denseAt x W (fun q => r (ix2 (0 : Fin 1) q)) p q := by
  rw [addf_apply, matmul_plain_zero_apply, broadcastTo_row_apply]
  rfl

end Cert.Lib.Dense

end
-- ==== Proof.Region0.lean ====
/-
  What one launch of the dense kernel leaves in its two result arrays.

  The kernel runs over 25 blocks of 2000 rows.  At block t it loads rows 2000 t … 2000 t + 1999 of the node features x
  and the whole of the two 256 × 256 weights and of the bias, and stores  x_block · W_init  into the same rows of its
  first result and  x_block · W_root + bias  into the same rows of its second.  Entry (p, q) of a block product is
  Σ_c x(2000 t + p, c) · W(c, q), which is entry (2000 t + p, q) of the product of the whole arrays; the 25 blocks
  cover every row.  So the first result ends as  x · W_init  and the second as  x · W_root  plus the bias laid along
  every row, as whole arrays — whatever the buffers held when the launch was entered.
-/
import proofs.«104222_j79053168050941_1_alg».proof.Proof.Gen.KernelIdeal.Frame
import proofs.«104222_j79053168050941_1_alg».proof.Proof.Spec
import proofs.«104222_j79053168050941_1_alg».proof.Proof.LibDense
import Idealize.ShloMosaic.Lib.Pipeline.Value
import Idealize.ShloMosaic.Lib.ValueIdx

set_option maxRecDepth 16384

noncomputable section

namespace Cert.Arma.Region0

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The two stored values at an entry of the block -/

/-- The first stored value: the block of rows times the weight. -/
theorem stored_prod_apply (x : Vec Ideal S2000x256 .f32) (W : Vec Ideal S256x256 .f32) (p : Fin 2000) (q : Fin 256) :
    k0_pay2 x W (ix2 p q) = ∑ cc : Fin 256, x (ix2 p cc) * W (ix2 cc q) := by
  unfold k0_pay2 k0_pay1
  dsimp only
  simp only [shapeCast_self]
  exact matmul_plain_zero_apply none x W p q

/-- The second stored value: the block of rows times the weight, plus the bias along every row. -/
theorem stored_dense_apply (x : Vec Ideal S2000x256 .f32) (W : Vec Ideal S256x256 .f32) (b : Vec Ideal S256 .f32)
    (p : Fin 2000) (q : Fin 256) :
    k0_pay3 x W b (ix2 p q) = (∑ cc : Fin 256, x (ix2 p cc) * W (ix2 cc q)) + b (ix1 q) := by
  unfold k0_pay3 k0_pay1
  dsimp only
  simp only [shapeCast_self]
  refine (block_dense_apply none x W _ _ p q).trans ?_
  unfold denseAt
  show _ + shapeCast S1x256 b shapeCasts_S256_S1x256 (ix2 (0 : Fin 1) q) = _
  rw [shapeCast_vec_row_apply]

/-! ## The blocks the body reads -/

/-- The printed index maps over the 25 grid points: the row windows sit at block t, the weights and the bias at 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 ∧ t.val < 25 :=
  (by decide +kernel : ∀ t : Fin grid0.N, _)

/-- Block t of the node features is rows 2000 t … 2000 t + 1999. -/
theorem rows_apply (c : Dev nD) (t : Fin cfg0.N) (y : S2000x256.Idx) (k : S50000x256.Idx)
    (hk0 : (k 0).val = 2000 * t.val + (y 0).val) (hk1 : (k 1).val = (y 1).val) :
    (iblk0 V c 0 t : Vec Ideal S2000x256 .f32) y = (V c main_arg0 : S50000x256.Idx → Elt Ideal .f32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 256 + 1 * (y 1).val = (k 1).val; rw [e1, hk1]; omega

/-- The first weight's block at every point is the whole weight. -/
theorem weight_init_eq (c : Dev nD) (t : Fin cfg0.N) :
    (iblk0 V c 1 t : Vec Ideal S256x256 .f32) = (V c main_v28 : S256x256.Idx → Elt Ideal .f32) := by
  obtain ⟨-, -, e0, e1, -⟩ := idx_facts t
  funext y
  unfold iblk0
  rw [View.read_apply]
  show V c main_v28 _ = V c main_v28 y
  congr 1
  funext a
  apply Fin.ext
  match a with
  | ⟨0, _⟩ => show win0_1.index t 0 * 256 + 1 * (y 0).val = (y 0).val; rw [e0]; omega
  | ⟨1, _⟩ => show win0_1.index t 1 * 256 + 1 * (y 1).val = (y 1).val; rw [e1]; omega

/-- The second weight's block at every point is the whole weight. -/
theorem weight_root_eq (c : Dev nD) (t : Fin cfg0.N) :
    (iblk0 V c 2 t : Vec Ideal S256x256 .f32) = (V c main_v30 : S256x256.Idx → Elt Ideal .f32) := by
  obtain ⟨-, -, -, -, e0, e1, -⟩ := idx_facts t
  funext y
  unfold iblk0
  rw [View.read_apply]
  show V c main_v30 _ = V c main_v30 y
  congr 1
  funext a
  apply Fin.ext
  match a with
  | ⟨0, _⟩ => show win0_2.index t 0 * 256 + 1 * (y 0).val = (y 0).val; rw [e0]; omega
  | ⟨1, _⟩ => show win0_2.index t 1 * 256 + 1 * (y 1).val = (y 1).val; rw [e1]; omega

/-- The bias's block at every point is the whole bias. -/
theorem bias_eq (c : Dev nD) (t : Fin cfg0.N) :
    (iblk0 V c 3 t : Vec Ideal S256 .f32) = (V c main_v32 : S256.Idx → Elt Ideal .f32) := by
  obtain ⟨-, -, -, -, -, -, e0, -⟩ := idx_facts t
  funext y
  unfold iblk0
  rw [View.read_apply]
  show V c main_v32 _ = V c main_v32 y
  congr 1
  funext a
  apply Fin.ext
  match a with
  | ⟨0, _⟩ => show win0_3.index t 0 * 256 + 1 * (y 0).val = (y 0).val; rw [e0]; omega

/-! ## The whole-array products at an entry -/

/-- Entry (r, q) of x · W. -/
theorem prod_apply (x : FVec Ideal Cert.ReferenceIdeal.S50000x256 .f32) (W : FVec Ideal Cert.ReferenceIdeal.S256x256 .f32)
    (r : Fin 50000) (q : Fin 256) :
    Cert.Arma.prod (F := Ideal) x W (ix2 r q) = ∑ cc : Fin 256, x (ix2 r cc) * W (ix2 cc q) :=
  StackMember.dotGeneral_plain_apply none x W r q

/-- Entry (r, q) of the bias laid along every row. -/
theorem biasRows_apply (b : FVec Ideal Cert.ReferenceIdeal.S256 .f32) (r : Fin 50000) (q : Fin 256) :
    Cert.Arma.biasRows (F := Ideal) b (ix2 r q) = b (ix1 q) := by
  unfold Cert.Arma.biasRows
  rw [broadcastInDim_row_apply, broadcastInDim_vec_row_apply]

/-! ## What a point writes back, the cover, and the two arrays after the launch -/

/-- An index is in point t's block of a result array iff each coordinate is in the block's range on its axis. -/
theorem mem_block_first (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v33_0).slice (win0_4.rect t)).set ↔ _
  rw [View.set_slice_whole, Rect.mem_set_unit]
  exact Iff.rfl

theorem mem_block_second (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v33_1).slice (win0_5.rect t)).set ↔ _
  rw [View.set_slice_whole, Rect.mem_set_unit]
  exact Iff.rfl

/-- Row r lies in block r / 2000 of the first result. -/
theorem cover_first (i : S50000x256.Idx) :
    ∃ t : Fin cfg0.N, (cfg0.win 4).flush t = true ∧ i ∈ ((cfg0.win 4).blk t).view.set := by
  have h0 : (i 0).val < 50000 := (i 0).isLt
  have h1 : (i 1).val < 256 := (i 1).isLt
  have hN : cfg0.N = 25 := N_0
  have hb : (i 0).val / 2000 < cfg0.N := by rw [hN]; omega
  refine ⟨⟨(i 0).val / 2000, hb⟩, flush0_4 _, ?_⟩
  rw [mem_block_first]
  obtain ⟨-, -, -, -, -, -, -, e0, e1, -⟩ := idx_facts (⟨(i 0).val / 2000, hb⟩ : Fin cfg0.N)
  intro a
  match a with
  | ⟨0, _⟩ =>
    show win0_4.index ⟨(i 0).val / 2000, hb⟩ 0 * 2000 ≤ (i 0).val ∧ (i 0).val < win0_4.index ⟨(i 0).val / 2000, hb⟩ 0 * 2000 + 2000
    rw [e0]; show (i 0).val / 2000 * 2000 ≤ (i 0).val ∧ (i 0).val < (i 0).val / 2000 * 2000 + 2000; omega
  | ⟨1, _⟩ =>
    show win0_4.index ⟨(i 0).val / 2000, hb⟩ 1 * 256 ≤ (i 1).val ∧ (i 1).val < win0_4.index ⟨(i 0).val / 2000, hb⟩ 1 * 256 + 256
    rw [e1]; omega

/-- Row r lies in block r / 2000 of the second result. -/
theorem cover_second (i : S50000x256.Idx) :
    ∃ t : Fin cfg0.N, (cfg0.win 5).flush t = true ∧ i ∈ ((cfg0.win 5).blk t).view.set := by
  have h0 : (i 0).val < 50000 := (i 0).isLt
  have h1 : (i 1).val < 256 := (i 1).isLt
  have hN : cfg0.N = 25 := N_0
  have hb : (i 0).val / 2000 < cfg0.N := by rw [hN]; omega
  refine ⟨⟨(i 0).val / 2000, hb⟩, flush0_5 _, ?_⟩
  rw [mem_block_second]
  obtain ⟨-, -, -, -, -, -, -, -, -, e0, e1, -⟩ := idx_facts (⟨(i 0).val / 2000, hb⟩ : Fin cfg0.N)
  intro a
  match a with
  | ⟨0, _⟩ =>
    show win0_5.index ⟨(i 0).val / 2000, hb⟩ 0 * 2000 ≤ (i 0).val ∧ (i 0).val < win0_5.index ⟨(i 0).val / 2000, hb⟩ 0 * 2000 + 2000
    rw [e0]; show (i 0).val / 2000 * 2000 ≤ (i 0).val ∧ (i 0).val < (i 0).val / 2000 * 2000 + 2000; omega
  | ⟨1, _⟩ =>
    show win0_5.index ⟨(i 0).val / 2000, hb⟩ 1 * 256 ≤ (i 1).val ∧ (i 1).val < win0_5.index ⟨(i 0).val / 2000, hb⟩ 1 * 256 + 256
    rw [e1]; omega

set_option maxHeartbeats 1000000 in
/-- What point t writes back into the first result is block t of x · W_init. -/
theorem flushed_first (c : Dev nD) (t : Fin cfg0.N) :
    (dat0 V c).flushed 4 t
      = ((cfg0.win 4).blk t).view.read (Elt Ideal) (Cert.Arma.prod (F := Ideal) (V c main_arg0) (V c main_v28)) := by
  show (cfg0.win 4).cut (grid0.coords t) ((dat0 V c).after 4 t) = _
  rw [after0_4]
  unfold out0_4
  rw [View.canon_unit_zero hz2]
  simp only [View.ld_unit_zero (S := S2000x256) hz2, View.ld_unit_zero (S := S256x256) hz2]
  rw [weight_init_eq V c t]
  obtain ⟨-, -, -, -, -, -, -, e0, e1, -, -, ht⟩ := idx_facts t
  funext j
  obtain ⟨p, q, rfl⟩ : ∃ (p : Fin 2000) (q : Fin 256), j = ix2 p q := ⟨j 0, j 1, eq_ix2 j⟩
  have hp : p.val < 2000 := p.isLt
  have hr : 2000 * t.val + p.val < 50000 := by omega
  have hemb : ((cfg0.win 4).blk t).view.emb (ix2 p q) = ix2 (⟨2000 * t.val + p.val, hr⟩ : Fin 50000) q := by
    funext a
    apply Fin.ext
    match a with
    | ⟨0, _⟩ => show win0_4.index t 0 * 2000 + 1 * p.val = 2000 * t.val + p.val; rw [e0]; omega
    | ⟨1, _⟩ => show win0_4.index t 1 * 256 + 1 * q.val = q.val; rw [e1]; omega
  show k0_pay2 (iblk0 V c 0 t) (V c main_v28) (ix2 p q)
    = Cert.Arma.prod (F := Ideal) (V c main_arg0) (V c main_v28) (((cfg0.win 4).blk t).view.emb (ix2 p q))
  rw [hemb, prod_apply, stored_prod_apply]
  refine Finset.sum_congr rfl fun cc _ => ?_
  rw [rows_apply V c t (ix2 p cc) (ix2 (⟨2000 * t.val + p.val, hr⟩ : Fin 50000) cc) rfl rfl]

set_option maxHeartbeats 1000000 in
/-- What point t writes back into the second result is block t of x · W_root plus the bias along every row. -/
theorem flushed_second (c : Dev nD) (t : Fin cfg0.N) :
    (dat0 V c).flushed 5 t
      = ((cfg0.win 5).blk t).view.read (Elt Ideal)
          (Cert.Arma.rootPart (F := Ideal) (V c main_arg0) (V c main_v30) (V c main_v32)) := by
  show (cfg0.win 5).cut (grid0.coords t) ((dat0 V c).after 5 t) = _
  rw [after0_5]
  unfold out0_5
  rw [View.canon_unit_zero hz2]
  simp only [View.ld_unit_zero (S := S2000x256) hz2, View.ld_unit_zero (S := S256x256) hz2, View.ld_unit_zero (S := S256) hz1]
  rw [weight_root_eq V c t, bias_eq V c t]
  obtain ⟨-, -, -, -, -, -, -, -, -, e0, e1, ht⟩ := idx_facts t
  funext j
  obtain ⟨p, q, rfl⟩ : ∃ (p : Fin 2000) (q : Fin 256), j = ix2 p q := ⟨j 0, j 1, eq_ix2 j⟩
  have hp : p.val < 2000 := p.isLt
  have hr : 2000 * t.val + p.val < 50000 := by omega
  have hemb : ((cfg0.win 5).blk t).view.emb (ix2 p q) = ix2 (⟨2000 * t.val + p.val, hr⟩ : Fin 50000) q := by
    funext a
    apply Fin.ext
    match a with
    | ⟨0, _⟩ => show win0_5.index t 0 * 2000 + 1 * p.val = 2000 * t.val + p.val; rw [e0]; omega
    | ⟨1, _⟩ => show win0_5.index t 1 * 256 + 1 * q.val = q.val; rw [e1]; omega
  show k0_pay3 (iblk0 V c 0 t) (V c main_v30) (V c main_v32) (ix2 p q)
    = (Cert.Arma.rootPart (F := Ideal) (V c main_arg0) (V c main_v30) (V c main_v32))
        (((cfg0.win 5).blk t).view.emb (ix2 p q))
  unfold Cert.Arma.rootPart
  rw [hemb, addf_apply, prod_apply, biasRows_apply, stored_dense_apply]
  congr 1
  refine Finset.sum_congr rfl fun cc _ => ?_
  rw [rows_apply V c t (ix2 p cc) (ix2 (⟨2000 * t.val + p.val, hr⟩ : Fin 50000) cc) rfl rfl]

/-- After the launch the first result array is x · W_init. -/
theorem result_first (c : Dev nD) :
    (dat0 V c).arrAt 4 cfg0.N = Cert.Arma.prod (F := Ideal) (V c main_arg0) (V c main_v28) :=
  (dat0 V c).arrAt_eq_of_cover 4 _ (fun t _ => flushed_first V c t) cover_first

/-- After the launch the second result array is x · W_root plus the bias along every row. -/
theorem result_second (c : Dev nD) :
    (dat0 V c).arrAt 5 cfg0.N
      = (Cert.Arma.rootPart (F := Ideal) (V c main_arg0) (V c main_v30) (V c main_v32)) :=
  (dat0 V c).arrAt_eq_of_cover 5 _ (fun t _ => flushed_second V c t) cover_second

end Cert.Arma.Region0

end
-- ==== Proof.Region1.lean ====
/-
  What one launch of the dense kernel leaves in its two result arrays.

  The kernel runs over 25 blocks of 2000 rows.  At block t it loads rows 2000 t … 2000 t + 1999 of the node features x
  and the whole of the two 256 × 256 weights and of the bias, and stores  x_block · W_init  into the same rows of its
  first result and  x_block · W_root + bias  into the same rows of its second.  Entry (p, q) of a block product is
  Σ_c x(2000 t + p, c) · W(c, q), which is entry (2000 t + p, q) of the product of the whole arrays; the 25 blocks
  cover every row.  So the first result ends as  x · W_init  and the second as  x · W_root  plus the bias laid along
  every row, as whole arrays — whatever the buffers held when the launch was entered.
-/
import proofs.«104222_j79053168050941_1_alg».proof.Proof.Gen.KernelIdeal.Frame
import proofs.«104222_j79053168050941_1_alg».proof.Proof.Spec
import proofs.«104222_j79053168050941_1_alg».proof.Proof.LibDense
import Idealize.ShloMosaic.Lib.Pipeline.Value
import Idealize.ShloMosaic.Lib.ValueIdx

set_option maxRecDepth 16384

noncomputable section

namespace Cert.Arma.Region1

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The two stored values at an entry of the block -/

/-- The first stored value: the block of rows times the weight. -/
theorem stored_prod_apply (x : Vec Ideal S2000x256 .f32) (W : Vec Ideal S256x256 .f32) (p : Fin 2000) (q : Fin 256) :
    k1_pay2 x W (ix2 p q) = ∑ cc : Fin 256, x (ix2 p cc) * W (ix2 cc q) := by
  unfold k1_pay2 k1_pay1
  dsimp only
  simp only [shapeCast_self]
  exact matmul_plain_zero_apply none x W p q

/-- The second stored value: the block of rows times the weight, plus the bias along every row. -/
theorem stored_dense_apply (x : Vec Ideal S2000x256 .f32) (W : Vec Ideal S256x256 .f32) (b : Vec Ideal S256 .f32)
    (p : Fin 2000) (q : Fin 256) :
    k1_pay3 x W b (ix2 p q) = (∑ cc : Fin 256, x (ix2 p cc) * W (ix2 cc q)) + b (ix1 q) := by
  unfold k1_pay3 k1_pay1
  dsimp only
  simp only [shapeCast_self]
  refine (block_dense_apply none x W _ _ p q).trans ?_
  unfold denseAt
  show _ + shapeCast S1x256 b shapeCasts_S256_S1x256 (ix2 (0 : Fin 1) q) = _
  rw [shapeCast_vec_row_apply]

/-! ## The blocks the body reads -/

/-- The printed index maps over the 25 grid points: the row windows sit at block t, the weights and the bias at 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 ∧ t.val < 25 :=
  (by decide +kernel : ∀ t : Fin grid1.N, _)

/-- Block t of the node features is rows 2000 t … 2000 t + 1999. -/
theorem rows_apply (c : Dev nD) (t : Fin cfg1.N) (y : S2000x256.Idx) (k : S50000x256.Idx)
    (hk0 : (k 0).val = 2000 * t.val + (y 0).val) (hk1 : (k 1).val = (y 1).val) :
    (iblk1 V c 0 t : Vec Ideal S2000x256 .f32) y = (V c main_v48 : S50000x256.Idx → Elt Ideal .f32) k := by
  obtain ⟨e0, e1, -⟩ := idx_facts t
  unfold iblk1
  rw [View.read_apply]
  show V c main_v48 _ = V c main_v48 _
  congr 1
  funext a
  apply Fin.ext
  match a with
  | ⟨0, _⟩ => show win1_0.index t 0 * 2000 + 1 * (y 0).val = (k 0).val; rw [e0, hk0]; omega
  | ⟨1, _⟩ => show win1_0.index t 1 * 256 + 1 * (y 1).val = (k 1).val; rw [e1, hk1]; omega

/-- The first weight's block at every point is the whole weight. -/
theorem weight_init_eq (c : Dev nD) (t : Fin cfg1.N) :
    (iblk1 V c 1 t : Vec Ideal S256x256 .f32) = (V c main_v50 : S256x256.Idx → Elt Ideal .f32) := by
  obtain ⟨-, -, e0, e1, -⟩ := idx_facts t
  funext y
  unfold iblk1
  rw [View.read_apply]
  show V c main_v50 _ = V c main_v50 y
  congr 1
  funext a
  apply Fin.ext
  match a with
  | ⟨0, _⟩ => show win1_1.index t 0 * 256 + 1 * (y 0).val = (y 0).val; rw [e0]; omega
  | ⟨1, _⟩ => show win1_1.index t 1 * 256 + 1 * (y 1).val = (y 1).val; rw [e1]; omega

/-- The second weight's block at every point is the whole weight. -/
theorem weight_root_eq (c : Dev nD) (t : Fin cfg1.N) :
    (iblk1 V c 2 t : Vec Ideal S256x256 .f32) = (V c main_v52 : S256x256.Idx → Elt Ideal .f32) := by
  obtain ⟨-, -, -, -, e0, e1, -⟩ := idx_facts t
  funext y
  unfold iblk1
  rw [View.read_apply]
  show V c main_v52 _ = V c main_v52 y
  congr 1
  funext a
  apply Fin.ext
  match a with
  | ⟨0, _⟩ => show win1_2.index t 0 * 256 + 1 * (y 0).val = (y 0).val; rw [e0]; omega
  | ⟨1, _⟩ => show win1_2.index t 1 * 256 + 1 * (y 1).val = (y 1).val; rw [e1]; omega

/-- The bias's block at every point is the whole bias. -/
theorem bias_eq (c : Dev nD) (t : Fin cfg1.N) :
    (iblk1 V c 3 t : Vec Ideal S256 .f32) = (V c main_v54 : S256.Idx → Elt Ideal .f32) := by
  obtain ⟨-, -, -, -, -, -, e0, -⟩ := idx_facts t
  funext y
  unfold iblk1
  rw [View.read_apply]
  show V c main_v54 _ = V c main_v54 y
  congr 1
  funext a
  apply Fin.ext
  match a with
  | ⟨0, _⟩ => show win1_3.index t 0 * 256 + 1 * (y 0).val = (y 0).val; rw [e0]; omega

/-! ## The whole-array products at an entry -/

/-- Entry (r, q) of x · W. -/
theorem prod_apply (x : FVec Ideal Cert.ReferenceIdeal.S50000x256 .f32) (W : FVec Ideal Cert.ReferenceIdeal.S256x256 .f32)
    (r : Fin 50000) (q : Fin 256) :
    Cert.Arma.prod (F := Ideal) x W (ix2 r q) = ∑ cc : Fin 256, x (ix2 r cc) * W (ix2 cc q) :=
  StackMember.dotGeneral_plain_apply none x W r q

/-- Entry (r, q) of the bias laid along every row. -/
theorem biasRows_apply (b : FVec Ideal Cert.ReferenceIdeal.S256 .f32) (r : Fin 50000) (q : Fin 256) :
    Cert.Arma.biasRows (F := Ideal) b (ix2 r q) = b (ix1 q) := by
  unfold Cert.Arma.biasRows
  rw [broadcastInDim_row_apply, broadcastInDim_vec_row_apply]

/-! ## What a point writes back, the cover, and the two arrays after the launch -/

/-- An index is in point t's block of a result array iff each coordinate is in the block's range on its axis. -/
theorem mem_block_first (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v55_0).slice (win1_4.rect t)).set ↔ _
  rw [View.set_slice_whole, Rect.mem_set_unit]
  exact Iff.rfl

theorem mem_block_second (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v55_1).slice (win1_5.rect t)).set ↔ _
  rw [View.set_slice_whole, Rect.mem_set_unit]
  exact Iff.rfl

/-- Row r lies in block r / 2000 of the first result. -/
theorem cover_first (i : S50000x256.Idx) :
    ∃ t : Fin cfg1.N, (cfg1.win 4).flush t = true ∧ i ∈ ((cfg1.win 4).blk t).view.set := by
  have h0 : (i 0).val < 50000 := (i 0).isLt
  have h1 : (i 1).val < 256 := (i 1).isLt
  have hN : cfg1.N = 25 := N_1
  have hb : (i 0).val / 2000 < cfg1.N := by rw [hN]; omega
  refine ⟨⟨(i 0).val / 2000, hb⟩, flush1_4 _, ?_⟩
  rw [mem_block_first]
  obtain ⟨-, -, -, -, -, -, -, e0, e1, -⟩ := idx_facts (⟨(i 0).val / 2000, hb⟩ : Fin cfg1.N)
  intro a
  match a with
  | ⟨0, _⟩ =>
    show win1_4.index ⟨(i 0).val / 2000, hb⟩ 0 * 2000 ≤ (i 0).val ∧ (i 0).val < win1_4.index ⟨(i 0).val / 2000, hb⟩ 0 * 2000 + 2000
    rw [e0]; show (i 0).val / 2000 * 2000 ≤ (i 0).val ∧ (i 0).val < (i 0).val / 2000 * 2000 + 2000; omega
  | ⟨1, _⟩ =>
    show win1_4.index ⟨(i 0).val / 2000, hb⟩ 1 * 256 ≤ (i 1).val ∧ (i 1).val < win1_4.index ⟨(i 0).val / 2000, hb⟩ 1 * 256 + 256
    rw [e1]; omega

/-- Row r lies in block r / 2000 of the second result. -/
theorem cover_second (i : S50000x256.Idx) :
    ∃ t : Fin cfg1.N, (cfg1.win 5).flush t = true ∧ i ∈ ((cfg1.win 5).blk t).view.set := by
  have h0 : (i 0).val < 50000 := (i 0).isLt
  have h1 : (i 1).val < 256 := (i 1).isLt
  have hN : cfg1.N = 25 := N_1
  have hb : (i 0).val / 2000 < cfg1.N := by rw [hN]; omega
  refine ⟨⟨(i 0).val / 2000, hb⟩, flush1_5 _, ?_⟩
  rw [mem_block_second]
  obtain ⟨-, -, -, -, -, -, -, -, -, e0, e1, -⟩ := idx_facts (⟨(i 0).val / 2000, hb⟩ : Fin cfg1.N)
  intro a
  match a with
  | ⟨0, _⟩ =>
    show win1_5.index ⟨(i 0).val / 2000, hb⟩ 0 * 2000 ≤ (i 0).val ∧ (i 0).val < win1_5.index ⟨(i 0).val / 2000, hb⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, hb⟩ 1 * 256 ≤ (i 1).val ∧ (i 1).val < win1_5.index ⟨(i 0).val / 2000, hb⟩ 1 * 256 + 256
    rw [e1]; omega

set_option maxHeartbeats 1000000 in
/-- What point t writes back into the first result is block t of x · W_init. -/
theorem flushed_first (c : Dev nD) (t : Fin cfg1.N) :
    (dat1 V c).flushed 4 t
      = ((cfg1.win 4).blk t).view.read (Elt Ideal) (Cert.Arma.prod (F := Ideal) (V c main_v48) (V c main_v50)) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S256x256) hz2]
  rw [weight_init_eq V c t]
  obtain ⟨-, -, -, -, -, -, -, e0, e1, -, -, ht⟩ := idx_facts t
  funext j
  obtain ⟨p, q, rfl⟩ : ∃ (p : Fin 2000) (q : Fin 256), j = ix2 p q := ⟨j 0, j 1, eq_ix2 j⟩
  have hp : p.val < 2000 := p.isLt
  have hr : 2000 * t.val + p.val < 50000 := by omega
  have hemb : ((cfg1.win 4).blk t).view.emb (ix2 p q) = ix2 (⟨2000 * t.val + p.val, hr⟩ : Fin 50000) q := by
    funext a
    apply Fin.ext
    match a with
    | ⟨0, _⟩ => show win1_4.index t 0 * 2000 + 1 * p.val = 2000 * t.val + p.val; rw [e0]; omega
    | ⟨1, _⟩ => show win1_4.index t 1 * 256 + 1 * q.val = q.val; rw [e1]; omega
  show k1_pay2 (iblk1 V c 0 t) (V c main_v50) (ix2 p q)
    = Cert.Arma.prod (F := Ideal) (V c main_v48) (V c main_v50) (((cfg1.win 4).blk t).view.emb (ix2 p q))
  rw [hemb, prod_apply, stored_prod_apply]
  refine Finset.sum_congr rfl fun cc _ => ?_
  rw [rows_apply V c t (ix2 p cc) (ix2 (⟨2000 * t.val + p.val, hr⟩ : Fin 50000) cc) rfl rfl]

set_option maxHeartbeats 1000000 in
/-- What point t writes back into the second result is block t of x · W_root plus the bias along every row. -/
theorem flushed_second (c : Dev nD) (t : Fin cfg1.N) :
    (dat1 V c).flushed 5 t
      = ((cfg1.win 5).blk t).view.read (Elt Ideal)
          (Cert.Arma.rootPart (F := Ideal) (V c main_v48) (V c main_v52) (V c main_v54)) := by
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  rw [weight_root_eq V c t, bias_eq V c t]
  obtain ⟨-, -, -, -, -, -, -, -, -, e0, e1, ht⟩ := idx_facts t
  funext j
  obtain ⟨p, q, rfl⟩ : ∃ (p : Fin 2000) (q : Fin 256), j = ix2 p q := ⟨j 0, j 1, eq_ix2 j⟩
  have hp : p.val < 2000 := p.isLt
  have hr : 2000 * t.val + p.val < 50000 := by omega
  have hemb : ((cfg1.win 5).blk t).view.emb (ix2 p q) = ix2 (⟨2000 * t.val + p.val, hr⟩ : Fin 50000) q := by
    funext a
    apply Fin.ext
    match a with
    | ⟨0, _⟩ => show win1_5.index t 0 * 2000 + 1 * p.val = 2000 * t.val + p.val; rw [e0]; omega
    | ⟨1, _⟩ => show win1_5.index t 1 * 256 + 1 * q.val = q.val; rw [e1]; omega
  show k1_pay3 (iblk1 V c 0 t) (V c main_v52) (V c main_v54) (ix2 p q)
    = (Cert.Arma.rootPart (F := Ideal) (V c main_v48) (V c main_v52) (V c main_v54))
        (((cfg1.win 5).blk t).view.emb (ix2 p q))
  unfold Cert.Arma.rootPart
  rw [hemb, addf_apply, prod_apply, biasRows_apply, stored_dense_apply]
  congr 1
  refine Finset.sum_congr rfl fun cc _ => ?_
  rw [rows_apply V c t (ix2 p cc) (ix2 (⟨2000 * t.val + p.val, hr⟩ : Fin 50000) cc) rfl rfl]

/-- After the launch the first result array is x · W_init. -/
theorem result_first (c : Dev nD) :
    (dat1 V c).arrAt 4 cfg1.N = Cert.Arma.prod (F := Ideal) (V c main_v48) (V c main_v50) :=
  (dat1 V c).arrAt_eq_of_cover 4 _ (fun t _ => flushed_first V c t) cover_first

/-- After the launch the second result array is x · W_root plus the bias along every row. -/
theorem result_second (c : Dev nD) :
    (dat1 V c).arrAt 5 cfg1.N
      = (Cert.Arma.rootPart (F := Ideal) (V c main_v48) (V c main_v52) (V c main_v54)) :=
  (dat1 V c).arrAt_eq_of_cover 5 _ (fun t _ => flushed_second V c t) cover_second

end Cert.Arma.Region1

end
-- ==== Proof.Region2.lean ====
/-
  What one launch of the dense kernel leaves in its two result arrays.

  The kernel runs over 25 blocks of 2000 rows.  At block t it loads rows 2000 t … 2000 t + 1999 of the node features x
  and the whole of the two 256 × 256 weights and of the bias, and stores  x_block · W_init  into the same rows of its
  first result and  x_block · W_root + bias  into the same rows of its second.  Entry (p, q) of a block product is
  Σ_c x(2000 t + p, c) · W(c, q), which is entry (2000 t + p, q) of the product of the whole arrays; the 25 blocks
  cover every row.  So the first result ends as  x · W_init  and the second as  x · W_root  plus the bias laid along
  every row, as whole arrays — whatever the buffers held when the launch was entered.
-/
import proofs.«104222_j79053168050941_1_alg».proof.Proof.Gen.KernelIdeal.Frame
import proofs.«104222_j79053168050941_1_alg».proof.Proof.Spec
import proofs.«104222_j79053168050941_1_alg».proof.Proof.LibDense
import Idealize.ShloMosaic.Lib.Pipeline.Value
import Idealize.ShloMosaic.Lib.ValueIdx

set_option maxRecDepth 16384

noncomputable section

namespace Cert.Arma.Region2

open Idealize.ShloMosaic Idealize.ShloMosaic.TcCoe Idealize.SL.Sem Idealize.ShloMosaic.ValueIdx
open Idealize.ShloMosaic.Pipeline (Dat)
open Cert.KernelIdeal Cert.KernelIdeal.Gen Cert.Lib.Dense
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The two stored values at an entry of the block -/

/-- The first stored value: the block of rows times the weight. -/
theorem stored_prod_apply (x : Vec Ideal S2000x256 .f32) (W : Vec Ideal S256x256 .f32) (p : Fin 2000) (q : Fin 256) :
    k2_pay2 x W (ix2 p q) = ∑ cc : Fin 256, x (ix2 p cc) * W (ix2 cc q) := by
  unfold k2_pay2 k2_pay1
  dsimp only
  simp only [shapeCast_self]
  exact matmul_plain_zero_apply none x W p q

/-- The second stored value: the block of rows times the weight, plus the bias along every row. -/
theorem stored_dense_apply (x : Vec Ideal S2000x256 .f32) (W : Vec Ideal S256x256 .f32) (b : Vec Ideal S256 .f32)
    (p : Fin 2000) (q : Fin 256) :
    k2_pay3 x W b (ix2 p q) = (∑ cc : Fin 256, x (ix2 p cc) * W (ix2 cc q)) + b (ix1 q) := by
  unfold k2_pay3 k2_pay1
  dsimp only
  simp only [shapeCast_self]
  refine (block_dense_apply none x W _ _ p q).trans ?_
  unfold denseAt
  show _ + shapeCast S1x256 b shapeCasts_S256_S1x256 (ix2 (0 : Fin 1) q) = _
  rw [shapeCast_vec_row_apply]

/-! ## The blocks the body reads -/

/-- The printed index maps over the 25 grid points: the row windows sit at block t, the weights and the bias at 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0
    ∧ win2_5.index t (0 : Fin 2) = t.val ∧ win2_5.index t (1 : Fin 2) = 0 ∧ t.val < 25 :=
  (by decide +kernel : ∀ t : Fin grid2.N, _)

/-- Block t of the node features is rows 2000 t … 2000 t + 1999. -/
theorem rows_apply (c : Dev nD) (t : Fin cfg2.N) (y : S2000x256.Idx) (k : S50000x256.Idx)
    (hk0 : (k 0).val = 2000 * t.val + (y 0).val) (hk1 : (k 1).val = (y 1).val) :
    (iblk2 V c 0 t : Vec Ideal S2000x256 .f32) y = (V c main_v70 : S50000x256.Idx → Elt Ideal .f32) k := by
  obtain ⟨e0, e1, -⟩ := idx_facts t
  unfold iblk2
  rw [View.read_apply]
  show V c main_v70 _ = V c main_v70 _
  congr 1
  funext a
  apply Fin.ext
  match a with
  | ⟨0, _⟩ => show win2_0.index t 0 * 2000 + 1 * (y 0).val = (k 0).val; rw [e0, hk0]; omega
  | ⟨1, _⟩ => show win2_0.index t 1 * 256 + 1 * (y 1).val = (k 1).val; rw [e1, hk1]; omega

/-- The first weight's block at every point is the whole weight. -/
theorem weight_init_eq (c : Dev nD) (t : Fin cfg2.N) :
    (iblk2 V c 1 t : Vec Ideal S256x256 .f32) = (V c main_v72 : S256x256.Idx → Elt Ideal .f32) := by
  obtain ⟨-, -, e0, e1, -⟩ := idx_facts t
  funext y
  unfold iblk2
  rw [View.read_apply]
  show V c main_v72 _ = V c main_v72 y
  congr 1
  funext a
  apply Fin.ext
  match a with
  | ⟨0, _⟩ => show win2_1.index t 0 * 256 + 1 * (y 0).val = (y 0).val; rw [e0]; omega
  | ⟨1, _⟩ => show win2_1.index t 1 * 256 + 1 * (y 1).val = (y 1).val; rw [e1]; omega

/-- The second weight's block at every point is the whole weight. -/
theorem weight_root_eq (c : Dev nD) (t : Fin cfg2.N) :
    (iblk2 V c 2 t : Vec Ideal S256x256 .f32) = (V c main_v74 : S256x256.Idx → Elt Ideal .f32) := by
  obtain ⟨-, -, -, -, e0, e1, -⟩ := idx_facts t
  funext y
  unfold iblk2
  rw [View.read_apply]
  show V c main_v74 _ = V c main_v74 y
  congr 1
  funext a
  apply Fin.ext
  match a with
  | ⟨0, _⟩ => show win2_2.index t 0 * 256 + 1 * (y 0).val = (y 0).val; rw [e0]; omega
  | ⟨1, _⟩ => show win2_2.index t 1 * 256 + 1 * (y 1).val = (y 1).val; rw [e1]; omega

/-- The bias's block at every point is the whole bias. -/
theorem bias_eq (c : Dev nD) (t : Fin cfg2.N) :
    (iblk2 V c 3 t : Vec Ideal S256 .f32) = (V c main_v76 : S256.Idx → Elt Ideal .f32) := by
  obtain ⟨-, -, -, -, -, -, e0, -⟩ := idx_facts t
  funext y
  unfold iblk2
  rw [View.read_apply]
  show V c main_v76 _ = V c main_v76 y
  congr 1
  funext a
  apply Fin.ext
  match a with
  | ⟨0, _⟩ => show win2_3.index t 0 * 256 + 1 * (y 0).val = (y 0).val; rw [e0]; omega

/-! ## The whole-array products at an entry -/

/-- Entry (r, q) of x · W. -/
theorem prod_apply (x : FVec Ideal Cert.ReferenceIdeal.S50000x256 .f32) (W : FVec Ideal Cert.ReferenceIdeal.S256x256 .f32)
    (r : Fin 50000) (q : Fin 256) :
    Cert.Arma.prod (F := Ideal) x W (ix2 r q) = ∑ cc : Fin 256, x (ix2 r cc) * W (ix2 cc q) :=
  StackMember.dotGeneral_plain_apply none x W r q

/-- Entry (r, q) of the bias laid along every row. -/
theorem biasRows_apply (b : FVec Ideal Cert.ReferenceIdeal.S256 .f32) (r : Fin 50000) (q : Fin 256) :
    Cert.Arma.biasRows (F := Ideal) b (ix2 r q) = b (ix1 q) := by
  unfold Cert.Arma.biasRows
  rw [broadcastInDim_row_apply, broadcastInDim_vec_row_apply]

/-! ## What a point writes back, the cover, and the two arrays after the launch -/

/-- An index is in point t's block of a result array iff each coordinate is in the block's range on its axis. -/
theorem mem_block_first (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v77_0).slice (win2_4.rect t)).set ↔ _
  rw [View.set_slice_whole, Rect.mem_set_unit]
  exact Iff.rfl

theorem mem_block_second (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v77_1).slice (win2_5.rect t)).set ↔ _
  rw [View.set_slice_whole, Rect.mem_set_unit]
  exact Iff.rfl

/-- Row r lies in block r / 2000 of the first result. -/
theorem cover_first (i : S50000x256.Idx) :
    ∃ t : Fin cfg2.N, (cfg2.win 4).flush t = true ∧ i ∈ ((cfg2.win 4).blk t).view.set := by
  have h0 : (i 0).val < 50000 := (i 0).isLt
  have h1 : (i 1).val < 256 := (i 1).isLt
  have hN : cfg2.N = 25 := N_2
  have hb : (i 0).val / 2000 < cfg2.N := by rw [hN]; omega
  refine ⟨⟨(i 0).val / 2000, hb⟩, flush2_4 _, ?_⟩
  rw [mem_block_first]
  obtain ⟨-, -, -, -, -, -, -, e0, e1, -⟩ := idx_facts (⟨(i 0).val / 2000, hb⟩ : Fin cfg2.N)
  intro a
  match a with
  | ⟨0, _⟩ =>
    show win2_4.index ⟨(i 0).val / 2000, hb⟩ 0 * 2000 ≤ (i 0).val ∧ (i 0).val < win2_4.index ⟨(i 0).val / 2000, hb⟩ 0 * 2000 + 2000
    rw [e0]; show (i 0).val / 2000 * 2000 ≤ (i 0).val ∧ (i 0).val < (i 0).val / 2000 * 2000 + 2000; omega
  | ⟨1, _⟩ =>
    show win2_4.index ⟨(i 0).val / 2000, hb⟩ 1 * 256 ≤ (i 1).val ∧ (i 1).val < win2_4.index ⟨(i 0).val / 2000, hb⟩ 1 * 256 + 256
    rw [e1]; omega

/-- Row r lies in block r / 2000 of the second result. -/
theorem cover_second (i : S50000x256.Idx) :
    ∃ t : Fin cfg2.N, (cfg2.win 5).flush t = true ∧ i ∈ ((cfg2.win 5).blk t).view.set := by
  have h0 : (i 0).val < 50000 := (i 0).isLt
  have h1 : (i 1).val < 256 := (i 1).isLt
  have hN : cfg2.N = 25 := N_2
  have hb : (i 0).val / 2000 < cfg2.N := by rw [hN]; omega
  refine ⟨⟨(i 0).val / 2000, hb⟩, flush2_5 _, ?_⟩
  rw [mem_block_second]
  obtain ⟨-, -, -, -, -, -, -, -, -, e0, e1, -⟩ := idx_facts (⟨(i 0).val / 2000, hb⟩ : Fin cfg2.N)
  intro a
  match a with
  | ⟨0, _⟩ =>
    show win2_5.index ⟨(i 0).val / 2000, hb⟩ 0 * 2000 ≤ (i 0).val ∧ (i 0).val < win2_5.index ⟨(i 0).val / 2000, hb⟩ 0 * 2000 + 2000
    rw [e0]; show (i 0).val / 2000 * 2000 ≤ (i 0).val ∧ (i 0).val < (i 0).val / 2000 * 2000 + 2000; omega
  | ⟨1, _⟩ =>
    show win2_5.index ⟨(i 0).val / 2000, hb⟩ 1 * 256 ≤ (i 1).val ∧ (i 1).val < win2_5.index ⟨(i 0).val / 2000, hb⟩ 1 * 256 + 256
    rw [e1]; omega

set_option maxHeartbeats 1000000 in
/-- What point t writes back into the first result is block t of x · W_init. -/
theorem flushed_first (c : Dev nD) (t : Fin cfg2.N) :
    (dat2 V c).flushed 4 t
      = ((cfg2.win 4).blk t).view.read (Elt Ideal) (Cert.Arma.prod (F := Ideal) (V c main_v70) (V c main_v72)) := by
  show (cfg2.win 4).cut (grid2.coords t) ((dat2 V c).after 4 t) = _
  rw [after2_4]
  unfold out2_4
  rw [View.canon_unit_zero hz2]
  simp only [View.ld_unit_zero (S := S2000x256) hz2, View.ld_unit_zero (S := S256x256) hz2]
  rw [weight_init_eq V c t]
  obtain ⟨-, -, -, -, -, -, -, e0, e1, -, -, ht⟩ := idx_facts t
  funext j
  obtain ⟨p, q, rfl⟩ : ∃ (p : Fin 2000) (q : Fin 256), j = ix2 p q := ⟨j 0, j 1, eq_ix2 j⟩
  have hp : p.val < 2000 := p.isLt
  have hr : 2000 * t.val + p.val < 50000 := by omega
  have hemb : ((cfg2.win 4).blk t).view.emb (ix2 p q) = ix2 (⟨2000 * t.val + p.val, hr⟩ : Fin 50000) q := by
    funext a
    apply Fin.ext
    match a with
    | ⟨0, _⟩ => show win2_4.index t 0 * 2000 + 1 * p.val = 2000 * t.val + p.val; rw [e0]; omega
    | ⟨1, _⟩ => show win2_4.index t 1 * 256 + 1 * q.val = q.val; rw [e1]; omega
  show k2_pay2 (iblk2 V c 0 t) (V c main_v72) (ix2 p q)
    = Cert.Arma.prod (F := Ideal) (V c main_v70) (V c main_v72) (((cfg2.win 4).blk t).view.emb (ix2 p q))
  rw [hemb, prod_apply, stored_prod_apply]
  refine Finset.sum_congr rfl fun cc _ => ?_
  rw [rows_apply V c t (ix2 p cc) (ix2 (⟨2000 * t.val + p.val, hr⟩ : Fin 50000) cc) rfl rfl]

set_option maxHeartbeats 1000000 in
/-- What point t writes back into the second result is block t of x · W_root plus the bias along every row. -/
theorem flushed_second (c : Dev nD) (t : Fin cfg2.N) :
    (dat2 V c).flushed 5 t
      = ((cfg2.win 5).blk t).view.read (Elt Ideal)
          (Cert.Arma.rootPart (F := Ideal) (V c main_v70) (V c main_v74) (V c main_v76)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S256) hz1]
  rw [weight_root_eq V c t, bias_eq V c t]
  obtain ⟨-, -, -, -, -, -, -, -, -, e0, e1, ht⟩ := idx_facts t
  funext j
  obtain ⟨p, q, rfl⟩ : ∃ (p : Fin 2000) (q : Fin 256), j = ix2 p q := ⟨j 0, j 1, eq_ix2 j⟩
  have hp : p.val < 2000 := p.isLt
  have hr : 2000 * t.val + p.val < 50000 := by omega
  have hemb : ((cfg2.win 5).blk t).view.emb (ix2 p q) = ix2 (⟨2000 * t.val + p.val, hr⟩ : Fin 50000) q := by
    funext a
    apply Fin.ext
    match a with
    | ⟨0, _⟩ => show win2_5.index t 0 * 2000 + 1 * p.val = 2000 * t.val + p.val; rw [e0]; omega
    | ⟨1, _⟩ => show win2_5.index t 1 * 256 + 1 * q.val = q.val; rw [e1]; omega
  show k2_pay3 (iblk2 V c 0 t) (V c main_v74) (V c main_v76) (ix2 p q)
    = (Cert.Arma.rootPart (F := Ideal) (V c main_v70) (V c main_v74) (V c main_v76))
        (((cfg2.win 5).blk t).view.emb (ix2 p q))
  unfold Cert.Arma.rootPart
  rw [hemb, addf_apply, prod_apply, biasRows_apply, stored_dense_apply]
  congr 1
  refine Finset.sum_congr rfl fun cc _ => ?_
  rw [rows_apply V c t (ix2 p cc) (ix2 (⟨2000 * t.val + p.val, hr⟩ : Fin 50000) cc) rfl rfl]

/-- After the launch the first result array is x · W_init. -/
theorem result_first (c : Dev nD) :
    (dat2 V c).arrAt 4 cfg2.N = Cert.Arma.prod (F := Ideal) (V c main_v70) (V c main_v72) :=
  (dat2 V c).arrAt_eq_of_cover 4 _ (fun t _ => flushed_first V c t) cover_first

/-- After the launch the second result array is x · W_root plus the bias along every row. -/
theorem result_second (c : Dev nD) :
    (dat2 V c).arrAt 5 cfg2.N
      = (Cert.Arma.rootPart (F := Ideal) (V c main_v70) (V c main_v74) (V c main_v76)) :=
  (dat2 V c).arrAt_eq_of_cover 5 _ (fun t _ => flushed_second V c t) cover_second

end Cert.Arma.Region2

end
-- ==== Proof.LibTypedRef.lean ====
/-
  A typed reference to a buffer carries a proof that the buffer's type is the value's type, and moves contents
  between the two along it. Moving a value to the buffer's type and back is the identity, and a value moved to the
  buffer's type is (heterogeneously) the value itself: the two facts that let a chain of host operations, written
  through typed references, be read as the plain composition of the operations.
-/
import Idealize.ShloMosaic.Lib.StableHlo

namespace Cert.Lib.TypedRef

open Idealize.ShloMosaic Idealize.ShloMosaic.StableHlo

variable {sig : RefSig} {Val : EltTy → Type} {T : BufTy}

/-- To the buffer's type and back. -/
theorem ofBuf_toBuf_id (x : TRef sig T) (v : T.Contents Val) : x.ofBuf (x.toBuf v) = v := by
  obtain ⟨r, h, h2, h3⟩ := x
  subst h
  rfl

/-- A value at the buffer's type is the value. -/
theorem toBuf_heq (x : TRef sig T) (v w : T.Contents Val) (h : v = w) : HEq (x.toBuf v) w := by
  subst h
  exact cast_heq _ _

end Cert.Lib.TypedRef
-- ==== Proof.HostEntry.lean ====
/-
  The host operations before the first launch, read one stretch at a time.

  From any contents of the buffers: the first stretch cuts the edge list into its two rows, sums the edge weights into
  their target nodes (the weighted in-degree) and takes the test deg > 0 and 1/sqrt(deg); the second (a called
  function) chooses between 1/sqrt(deg) and zero node by node; the third looks the result up at both ends of every
  edge and multiplies by the edge weight — the normalised weights — and cuts layer 0's two weights and bias out of their
  stacks.  Every other buffer named here is written by none of the three.
-/
import proofs.«104222_j79053168050941_1_alg».proof.Proof.Gen.KernelIdeal.Launch
import proofs.«104222_j79053168050941_1_alg».proof.Proof.Spec
import proofs.«104222_j79053168050941_1_alg».proof.Proof.LibTypedRef
import Idealize.ShloMosaic.Lib.StableHlo.Run

set_option maxRecDepth 16384

noncomputable section

namespace Cert.Arma.HostEntry

open Idealize.ShloMosaic Idealize.ShloMosaic.TcCoe Idealize.SL.Sem Idealize.ShloMosaic.StableHlo
open Cert.KernelIdeal Cert.KernelIdeal.Gen

variable (Wx : Valuation τ sig (Elt Ideal))

/-! ## First stretch -/

/-- Row 0 of the edge list. -/
theorem first_src : after (hostOps0 (F := Ideal)) Wx (Proc.devRef .tc main_v1) = Cert.Arma.srcOf (F := Ideal) (Wx (Proc.devRef .tc main_arg1)) := by
  dsimp only [hostOps0]
  after_results_simp
  try simp only [Cert.Lib.TypedRef.ofBuf_toBuf_id]
  first | done | rfl

/-- Row 1 of the edge list. -/
theorem first_dst : after (hostOps0 (F := Ideal)) Wx (Proc.devRef .tc main_v3) = Cert.Arma.dstOf (F := Ideal) (Wx (Proc.devRef .tc main_arg1)) := by
  dsimp only [hostOps0]
  after_results_simp
  try simp only [Cert.Lib.TypedRef.ofBuf_toBuf_id]
  first | done | rfl

/-- The test deg > 0. -/
theorem first_pos : after (hostOps0 (F := Ideal)) Wx (Proc.devRef .tc main_v8) = Cert.Arma.posOf (F := Ideal) (Cert.Arma.dstOf (F := Ideal) (Wx (Proc.devRef .tc main_arg1))) (Wx (Proc.devRef .tc main_arg2)) := by
  dsimp only [hostOps0]
  after_results_simp
  try simp only [Cert.Lib.TypedRef.ofBuf_toBuf_id]
  first | done | rfl

/-- 1/sqrt(deg). -/
theorem first_rsqrt : after (hostOps0 (F := Ideal)) Wx (Proc.devRef .tc main_v9) = Cert.Arma.rsqrtDegOf (F := Ideal) (Cert.Arma.dstOf (F := Ideal) (Wx (Proc.devRef .tc main_arg1))) (Wx (Proc.devRef .tc main_arg2)) := by
  dsimp only [hostOps0]
  after_results_simp
  try simp only [Cert.Lib.TypedRef.ofBuf_toBuf_id]
  first | done | rfl

/-- The scalar zero handed to the called function. -/
theorem first_zero : after (hostOps0 (F := Ideal)) Wx (Proc.devRef .tc main_cst_1) = constant (F := Ideal) Cert.ReferenceIdeal.S_ .f32 0x00000000#32 := by
  dsimp only [hostOps0]
  after_results_simp
  try simp only [Cert.Lib.TypedRef.ofBuf_toBuf_id]
  first | done | rfl

theorem keep_hostOps0_main_arg0 : after (hostOps0 (F := Ideal)) Wx (Proc.devRef .tc main_arg0) = Wx (Proc.devRef .tc main_arg0) := by
  dsimp only [hostOps0]
  after_results_simp

theorem keep_hostOps0_main_arg2 : after (hostOps0 (F := Ideal)) Wx (Proc.devRef .tc main_arg2) = Wx (Proc.devRef .tc main_arg2) := by
  dsimp only [hostOps0]
  after_results_simp

theorem keep_hostOps0_main_arg3 : after (hostOps0 (F := Ideal)) Wx (Proc.devRef .tc main_arg3) = Wx (Proc.devRef .tc main_arg3) := by
  dsimp only [hostOps0]
  after_results_simp

theorem keep_hostOps0_main_arg4 : after (hostOps0 (F := Ideal)) Wx (Proc.devRef .tc main_arg4) = Wx (Proc.devRef .tc main_arg4) := by
  dsimp only [hostOps0]
  after_results_simp

theorem keep_hostOps0_main_arg5 : after (hostOps0 (F := Ideal)) Wx (Proc.devRef .tc main_arg5) = Wx (Proc.devRef .tc main_arg5) := by
  dsimp only [hostOps0]
  after_results_simp

/-! ## Second stretch: the called function -/

/-- 1/sqrt(deg) where deg > 0, the scalar elsewhere. -/
theorem second_dinv : after (hostOps0_1 (F := Ideal)) Wx (Proc.devRef .tc main_v10) = Cert.Arma.dinvFrom (F := Ideal) (Wx (Proc.devRef .tc main_v8)) (Wx (Proc.devRef .tc main_v9)) (Wx (Proc.devRef .tc main_cst_1)) := by
  dsimp only [hostOps0_1]
  after_results_simp
  try simp only [Cert.Lib.TypedRef.ofBuf_toBuf_id]
  first | done | rfl

theorem keep_hostOps0_1_main_v1 : after (hostOps0_1 (F := Ideal)) Wx (Proc.devRef .tc main_v1) = Wx (Proc.devRef .tc main_v1) := by
  dsimp only [hostOps0_1]
  after_results_simp

theorem keep_hostOps0_1_main_v3 : after (hostOps0_1 (F := Ideal)) Wx (Proc.devRef .tc main_v3) = Wx (Proc.devRef .tc main_v3) := by
  dsimp only [hostOps0_1]
  after_results_simp

theorem keep_hostOps0_1_main_arg0 : after (hostOps0_1 (F := Ideal)) Wx (Proc.devRef .tc main_arg0) = Wx (Proc.devRef .tc main_arg0) := by
  dsimp only [hostOps0_1]
  after_results_simp

theorem keep_hostOps0_1_main_arg2 : after (hostOps0_1 (F := Ideal)) Wx (Proc.devRef .tc main_arg2) = Wx (Proc.devRef .tc main_arg2) := by
  dsimp only [hostOps0_1]
  after_results_simp

theorem keep_hostOps0_1_main_arg3 : after (hostOps0_1 (F := Ideal)) Wx (Proc.devRef .tc main_arg3) = Wx (Proc.devRef .tc main_arg3) := by
  dsimp only [hostOps0_1]
  after_results_simp

theorem keep_hostOps0_1_main_arg4 : after (hostOps0_1 (F := Ideal)) Wx (Proc.devRef .tc main_arg4) = Wx (Proc.devRef .tc main_arg4) := by
  dsimp only [hostOps0_1]
  after_results_simp

theorem keep_hostOps0_1_main_arg5 : after (hostOps0_1 (F := Ideal)) Wx (Proc.devRef .tc main_arg5) = Wx (Proc.devRef .tc main_arg5) := by
  dsimp only [hostOps0_1]
  after_results_simp

/-! ## Third stretch -/

/-- The normalised edge weights. -/
theorem third_norm : after (hostOps0_2 (F := Ideal)) Wx (Proc.devRef .tc main_v26) = Cert.Arma.normFrom (F := Ideal) (Wx (Proc.devRef .tc main_v10)) (Wx (Proc.devRef .tc main_v1)) (Wx (Proc.devRef .tc main_v3)) (Wx (Proc.devRef .tc main_arg2)) := by
  dsimp only [hostOps0_2]
  after_results_simp
  try simp only [Cert.Lib.TypedRef.ofBuf_toBuf_id]
  first | done | rfl

/-- Layer 0's first weight. -/
theorem third_init : after (hostOps0_2 (F := Ideal)) Wx (Proc.devRef .tc main_v28) = Cert.Arma.slab0 (F := Ideal) (Wx (Proc.devRef .tc main_arg3)) := by
  dsimp only [hostOps0_2]
  after_results_simp
  try simp only [Cert.Lib.TypedRef.ofBuf_toBuf_id]
  first | done | rfl

/-- Layer 0's second weight. -/
theorem third_root : after (hostOps0_2 (F := Ideal)) Wx (Proc.devRef .tc main_v30) = Cert.Arma.slab0 (F := Ideal) (Wx (Proc.devRef .tc main_arg4)) := by
  dsimp only [hostOps0_2]
  after_results_simp
  try simp only [Cert.Lib.TypedRef.ofBuf_toBuf_id]
  first | done | rfl

/-- Layer 0's bias. -/
theorem third_bias : after (hostOps0_2 (F := Ideal)) Wx (Proc.devRef .tc main_v32) = Cert.Arma.row0 (F := Ideal) (Wx (Proc.devRef .tc main_arg5)) := by
  dsimp only [hostOps0_2]
  after_results_simp
  try simp only [Cert.Lib.TypedRef.ofBuf_toBuf_id]
  first | done | rfl

theorem keep_hostOps0_2_main_v1 : after (hostOps0_2 (F := Ideal)) Wx (Proc.devRef .tc main_v1) = Wx (Proc.devRef .tc main_v1) := by
  dsimp only [hostOps0_2]
  after_results_simp

theorem keep_hostOps0_2_main_v3 : after (hostOps0_2 (F := Ideal)) Wx (Proc.devRef .tc main_v3) = Wx (Proc.devRef .tc main_v3) := by
  dsimp only [hostOps0_2]
  after_results_simp

theorem keep_hostOps0_2_main_arg0 : after (hostOps0_2 (F := Ideal)) Wx (Proc.devRef .tc main_arg0) = Wx (Proc.devRef .tc main_arg0) := by
  dsimp only [hostOps0_2]
  after_results_simp

theorem keep_hostOps0_2_main_arg3 : after (hostOps0_2 (F := Ideal)) Wx (Proc.devRef .tc main_arg3) = Wx (Proc.devRef .tc main_arg3) := by
  dsimp only [hostOps0_2]
  after_results_simp

theorem keep_hostOps0_2_main_arg4 : after (hostOps0_2 (F := Ideal)) Wx (Proc.devRef .tc main_arg4) = Wx (Proc.devRef .tc main_arg4) := by
  dsimp only [hostOps0_2]
  after_results_simp

theorem keep_hostOps0_2_main_arg5 : after (hostOps0_2 (F := Ideal)) Wx (Proc.devRef .tc main_arg5) = Wx (Proc.devRef .tc main_arg5) := by
  dsimp only [hostOps0_2]
  after_results_simp

end Cert.Arma.HostEntry

end
-- ==== Proof.HostMid.lean ====
/-
  The host operations between the launches and after the last, read one stretch at a time.

  After a launch has left  h = x · W_init  and  r = x · W_root + b  in its two result arrays, the host looks h up at the
  source of every edge, scales by the normalised weight, sums into the target nodes and adds r; a called function
  takes max(·, 0); and the next layer's weights and bias are cut out of their stacks.  Every other buffer named here
  is written by none of these stretches.
-/
import proofs.«104222_j79053168050941_1_alg».proof.Proof.Gen.KernelIdeal.Launch
import proofs.«104222_j79053168050941_1_alg».proof.Proof.Spec
import proofs.«104222_j79053168050941_1_alg».proof.Proof.LibTypedRef
import Idealize.ShloMosaic.Lib.StableHlo.Run

set_option maxRecDepth 16384

noncomputable section

namespace Cert.Arma.HostMid

open Idealize.ShloMosaic Idealize.ShloMosaic.TcCoe Idealize.SL.Sem Idealize.ShloMosaic.StableHlo
open Cert.KernelIdeal Cert.KernelIdeal.Gen

variable (Wx : Valuation τ sig (Elt Ideal))

/-! ## After launch 0 -/

/-- The messages summed into their targets plus the launch's second result. -/
theorem sum_after0 : after (hostOps1 (F := Ideal)) Wx (Proc.devRef .tc main_v47) = Cert.Arma.preAct (F := Ideal) (Wx (Proc.devRef .tc main_v1)) (Wx (Proc.devRef .tc main_v3)) (Wx (Proc.devRef .tc main_v26)) (Wx (Proc.devRef .tc main_v33_0)) (Wx (Proc.devRef .tc main_v33_1)) := by
  dsimp only [hostOps1]
  after_results_simp
  try simp only [Cert.Lib.TypedRef.ofBuf_toBuf_id]
  first | done | rfl

theorem keep_hostOps1_main_v1 : after (hostOps1 (F := Ideal)) Wx (Proc.devRef .tc main_v1) = Wx (Proc.devRef .tc main_v1) := by
  dsimp only [hostOps1]
  after_results_simp

theorem keep_hostOps1_main_v3 : after (hostOps1 (F := Ideal)) Wx (Proc.devRef .tc main_v3) = Wx (Proc.devRef .tc main_v3) := by
  dsimp only [hostOps1]
  after_results_simp

theorem keep_hostOps1_main_v26 : after (hostOps1 (F := Ideal)) Wx (Proc.devRef .tc main_v26) = Wx (Proc.devRef .tc main_v26) := by
  dsimp only [hostOps1]
  after_results_simp

theorem keep_hostOps1_main_arg3 : after (hostOps1 (F := Ideal)) Wx (Proc.devRef .tc main_arg3) = Wx (Proc.devRef .tc main_arg3) := by
  dsimp only [hostOps1]
  after_results_simp

theorem keep_hostOps1_main_arg4 : after (hostOps1 (F := Ideal)) Wx (Proc.devRef .tc main_arg4) = Wx (Proc.devRef .tc main_arg4) := by
  dsimp only [hostOps1]
  after_results_simp

theorem keep_hostOps1_main_arg5 : after (hostOps1 (F := Ideal)) Wx (Proc.devRef .tc main_arg5) = Wx (Proc.devRef .tc main_arg5) := by
  dsimp only [hostOps1]
  after_results_simp

/-- max(·, 0): a called function. -/
theorem relu_after0 : after (hostOps1_1 (F := Ideal)) Wx (Proc.devRef .tc main_v48) = Cert.Arma.relu (F := Ideal) (Wx (Proc.devRef .tc main_v47)) := by
  dsimp only [hostOps1_1]
  after_results_simp
  try simp only [Cert.Lib.TypedRef.ofBuf_toBuf_id]
  first | done | rfl

theorem keep_hostOps1_1_main_v1 : after (hostOps1_1 (F := Ideal)) Wx (Proc.devRef .tc main_v1) = Wx (Proc.devRef .tc main_v1) := by
  dsimp only [hostOps1_1]
  after_results_simp

theorem keep_hostOps1_1_main_v3 : after (hostOps1_1 (F := Ideal)) Wx (Proc.devRef .tc main_v3) = Wx (Proc.devRef .tc main_v3) := by
  dsimp only [hostOps1_1]
  after_results_simp

theorem keep_hostOps1_1_main_v26 : after (hostOps1_1 (F := Ideal)) Wx (Proc.devRef .tc main_v26) = Wx (Proc.devRef .tc main_v26) := by
  dsimp only [hostOps1_1]
  after_results_simp

theorem keep_hostOps1_1_main_arg3 : after (hostOps1_1 (F := Ideal)) Wx (Proc.devRef .tc main_arg3) = Wx (Proc.devRef .tc main_arg3) := by
  dsimp only [hostOps1_1]
  after_results_simp

theorem keep_hostOps1_1_main_arg4 : after (hostOps1_1 (F := Ideal)) Wx (Proc.devRef .tc main_arg4) = Wx (Proc.devRef .tc main_arg4) := by
  dsimp only [hostOps1_1]
  after_results_simp

theorem keep_hostOps1_1_main_arg5 : after (hostOps1_1 (F := Ideal)) Wx (Proc.devRef .tc main_arg5) = Wx (Proc.devRef .tc main_arg5) := by
  dsimp only [hostOps1_1]
  after_results_simp

/-- Layer 1's first weight. -/
theorem init_after0 : after (hostOps1_2 (F := Ideal)) Wx (Proc.devRef .tc main_v50) = Cert.Arma.slab1 (F := Ideal) (Wx (Proc.devRef .tc main_arg3)) := by
  dsimp only [hostOps1_2]
  after_results_simp
  try simp only [Cert.Lib.TypedRef.ofBuf_toBuf_id]
  first | done | rfl

/-- Layer 1's second weight. -/
theorem root_after0 : after (hostOps1_2 (F := Ideal)) Wx (Proc.devRef .tc main_v52) = Cert.Arma.slab1 (F := Ideal) (Wx (Proc.devRef .tc main_arg4)) := by
  dsimp only [hostOps1_2]
  after_results_simp
  try simp only [Cert.Lib.TypedRef.ofBuf_toBuf_id]
  first | done | rfl

/-- Layer 1's bias. -/
theorem bias_after0 : after (hostOps1_2 (F := Ideal)) Wx (Proc.devRef .tc main_v54) = Cert.Arma.row1 (F := Ideal) (Wx (Proc.devRef .tc main_arg5)) := by
  dsimp only [hostOps1_2]
  after_results_simp
  try simp only [Cert.Lib.TypedRef.ofBuf_toBuf_id]
  first | done | rfl

theorem keep_hostOps1_2_main_v48 : after (hostOps1_2 (F := Ideal)) Wx (Proc.devRef .tc main_v48) = Wx (Proc.devRef .tc main_v48) := by
  dsimp only [hostOps1_2]
  after_results_simp

theorem keep_hostOps1_2_main_v1 : after (hostOps1_2 (F := Ideal)) Wx (Proc.devRef .tc main_v1) = Wx (Proc.devRef .tc main_v1) := by
  dsimp only [hostOps1_2]
  after_results_simp

theorem keep_hostOps1_2_main_v3 : after (hostOps1_2 (F := Ideal)) Wx (Proc.devRef .tc main_v3) = Wx (Proc.devRef .tc main_v3) := by
  dsimp only [hostOps1_2]
  after_results_simp

theorem keep_hostOps1_2_main_v26 : after (hostOps1_2 (F := Ideal)) Wx (Proc.devRef .tc main_v26) = Wx (Proc.devRef .tc main_v26) := by
  dsimp only [hostOps1_2]
  after_results_simp

theorem keep_hostOps1_2_main_arg3 : after (hostOps1_2 (F := Ideal)) Wx (Proc.devRef .tc main_arg3) = Wx (Proc.devRef .tc main_arg3) := by
  dsimp only [hostOps1_2]
  after_results_simp

theorem keep_hostOps1_2_main_arg4 : after (hostOps1_2 (F := Ideal)) Wx (Proc.devRef .tc main_arg4) = Wx (Proc.devRef .tc main_arg4) := by
  dsimp only [hostOps1_2]
  after_results_simp

theorem keep_hostOps1_2_main_arg5 : after (hostOps1_2 (F := Ideal)) Wx (Proc.devRef .tc main_arg5) = Wx (Proc.devRef .tc main_arg5) := by
  dsimp only [hostOps1_2]
  after_results_simp

/-! ## After launch 1 -/

/-- The messages summed into their targets plus the launch's second result. -/
theorem sum_after1 : after (hostOps2 (F := Ideal)) Wx (Proc.devRef .tc main_v69) = Cert.Arma.preAct (F := Ideal) (Wx (Proc.devRef .tc main_v1)) (Wx (Proc.devRef .tc main_v3)) (Wx (Proc.devRef .tc main_v26)) (Wx (Proc.devRef .tc main_v55_0)) (Wx (Proc.devRef .tc main_v55_1)) := by
  dsimp only [hostOps2]
  after_results_simp
  try simp only [Cert.Lib.TypedRef.ofBuf_toBuf_id]
  first | done | rfl

theorem keep_hostOps2_main_v1 : after (hostOps2 (F := Ideal)) Wx (Proc.devRef .tc main_v1) = Wx (Proc.devRef .tc main_v1) := by
  dsimp only [hostOps2]
  after_results_simp

theorem keep_hostOps2_main_v3 : after (hostOps2 (F := Ideal)) Wx (Proc.devRef .tc main_v3) = Wx (Proc.devRef .tc main_v3) := by
  dsimp only [hostOps2]
  after_results_simp

theorem keep_hostOps2_main_v26 : after (hostOps2 (F := Ideal)) Wx (Proc.devRef .tc main_v26) = Wx (Proc.devRef .tc main_v26) := by
  dsimp only [hostOps2]
  after_results_simp

theorem keep_hostOps2_main_arg3 : after (hostOps2 (F := Ideal)) Wx (Proc.devRef .tc main_arg3) = Wx (Proc.devRef .tc main_arg3) := by
  dsimp only [hostOps2]
  after_results_simp

theorem keep_hostOps2_main_arg4 : after (hostOps2 (F := Ideal)) Wx (Proc.devRef .tc main_arg4) = Wx (Proc.devRef .tc main_arg4) := by
  dsimp only [hostOps2]
  after_results_simp

theorem keep_hostOps2_main_arg5 : after (hostOps2 (F := Ideal)) Wx (Proc.devRef .tc main_arg5) = Wx (Proc.devRef .tc main_arg5) := by
  dsimp only [hostOps2]
  after_results_simp

/-- max(·, 0): a called function. -/
theorem relu_after1 : after (hostOps2_1 (F := Ideal)) Wx (Proc.devRef .tc main_v70) = Cert.Arma.relu (F := Ideal) (Wx (Proc.devRef .tc main_v69)) := by
  dsimp only [hostOps2_1]
  after_results_simp
  try simp only [Cert.Lib.TypedRef.ofBuf_toBuf_id]
  first | done | rfl

theorem keep_hostOps2_1_main_v1 : after (hostOps2_1 (F := Ideal)) Wx (Proc.devRef .tc main_v1) = Wx (Proc.devRef .tc main_v1) := by
  dsimp only [hostOps2_1]
  after_results_simp

theorem keep_hostOps2_1_main_v3 : after (hostOps2_1 (F := Ideal)) Wx (Proc.devRef .tc main_v3) = Wx (Proc.devRef .tc main_v3) := by
  dsimp only [hostOps2_1]
  after_results_simp

theorem keep_hostOps2_1_main_v26 : after (hostOps2_1 (F := Ideal)) Wx (Proc.devRef .tc main_v26) = Wx (Proc.devRef .tc main_v26) := by
  dsimp only [hostOps2_1]
  after_results_simp

theorem keep_hostOps2_1_main_arg3 : after (hostOps2_1 (F := Ideal)) Wx (Proc.devRef .tc main_arg3) = Wx (Proc.devRef .tc main_arg3) := by
  dsimp only [hostOps2_1]
  after_results_simp

theorem keep_hostOps2_1_main_arg4 : after (hostOps2_1 (F := Ideal)) Wx (Proc.devRef .tc main_arg4) = Wx (Proc.devRef .tc main_arg4) := by
  dsimp only [hostOps2_1]
  after_results_simp

theorem keep_hostOps2_1_main_arg5 : after (hostOps2_1 (F := Ideal)) Wx (Proc.devRef .tc main_arg5) = Wx (Proc.devRef .tc main_arg5) := by
  dsimp only [hostOps2_1]
  after_results_simp

/-- Layer 2's first weight. -/
theorem init_after1 : after (hostOps2_2 (F := Ideal)) Wx (Proc.devRef .tc main_v72) = Cert.Arma.slab2 (F := Ideal) (Wx (Proc.devRef .tc main_arg3)) := by
  dsimp only [hostOps2_2]
  after_results_simp
  try simp only [Cert.Lib.TypedRef.ofBuf_toBuf_id]
  first | done | rfl

/-- Layer 2's second weight. -/
theorem root_after1 : after (hostOps2_2 (F := Ideal)) Wx (Proc.devRef .tc main_v74) = Cert.Arma.slab2 (F := Ideal) (Wx (Proc.devRef .tc main_arg4)) := by
  dsimp only [hostOps2_2]
  after_results_simp
  try simp only [Cert.Lib.TypedRef.ofBuf_toBuf_id]
  first | done | rfl

/-- Layer 2's bias. -/
theorem bias_after1 : after (hostOps2_2 (F := Ideal)) Wx (Proc.devRef .tc main_v76) = Cert.Arma.row2 (F := Ideal) (Wx (Proc.devRef .tc main_arg5)) := by
  dsimp only [hostOps2_2]
  after_results_simp
  try simp only [Cert.Lib.TypedRef.ofBuf_toBuf_id]
  first | done | rfl

theorem keep_hostOps2_2_main_v70 : after (hostOps2_2 (F := Ideal)) Wx (Proc.devRef .tc main_v70) = Wx (Proc.devRef .tc main_v70) := by
  dsimp only [hostOps2_2]
  after_results_simp

theorem keep_hostOps2_2_main_v1 : after (hostOps2_2 (F := Ideal)) Wx (Proc.devRef .tc main_v1) = Wx (Proc.devRef .tc main_v1) := by
  dsimp only [hostOps2_2]
  after_results_simp

theorem keep_hostOps2_2_main_v3 : after (hostOps2_2 (F := Ideal)) Wx (Proc.devRef .tc main_v3) = Wx (Proc.devRef .tc main_v3) := by
  dsimp only [hostOps2_2]
  after_results_simp

theorem keep_hostOps2_2_main_v26 : after (hostOps2_2 (F := Ideal)) Wx (Proc.devRef .tc main_v26) = Wx (Proc.devRef .tc main_v26) := by
  dsimp only [hostOps2_2]
  after_results_simp

/-! ## After launch 2 -/

/-- The messages summed into their targets plus the launch's second result. -/
theorem sum_after2 : after (hostOps3 (F := Ideal)) Wx (Proc.devRef .tc main_v91) = Cert.Arma.preAct (F := Ideal) (Wx (Proc.devRef .tc main_v1)) (Wx (Proc.devRef .tc main_v3)) (Wx (Proc.devRef .tc main_v26)) (Wx (Proc.devRef .tc main_v77_0)) (Wx (Proc.devRef .tc main_v77_1)) := by
  dsimp only [hostOps3]
  after_results_simp
  try simp only [Cert.Lib.TypedRef.ofBuf_toBuf_id]
  first | done | rfl

theorem keep_hostOps3_main_v1 : after (hostOps3 (F := Ideal)) Wx (Proc.devRef .tc main_v1) = Wx (Proc.devRef .tc main_v1) := by
  dsimp only [hostOps3]
  after_results_simp

theorem keep_hostOps3_main_v3 : after (hostOps3 (F := Ideal)) Wx (Proc.devRef .tc main_v3) = Wx (Proc.devRef .tc main_v3) := by
  dsimp only [hostOps3]
  after_results_simp

theorem keep_hostOps3_main_v26 : after (hostOps3 (F := Ideal)) Wx (Proc.devRef .tc main_v26) = Wx (Proc.devRef .tc main_v26) := by
  dsimp only [hostOps3]
  after_results_simp

theorem keep_hostOps3_main_arg3 : after (hostOps3 (F := Ideal)) Wx (Proc.devRef .tc main_arg3) = Wx (Proc.devRef .tc main_arg3) := by
  dsimp only [hostOps3]
  after_results_simp

theorem keep_hostOps3_main_arg4 : after (hostOps3 (F := Ideal)) Wx (Proc.devRef .tc main_arg4) = Wx (Proc.devRef .tc main_arg4) := by
  dsimp only [hostOps3]
  after_results_simp

theorem keep_hostOps3_main_arg5 : after (hostOps3 (F := Ideal)) Wx (Proc.devRef .tc main_arg5) = Wx (Proc.devRef .tc main_arg5) := by
  dsimp only [hostOps3]
  after_results_simp

/-- max(·, 0): a called function. -/
theorem relu_after2 : after (hostOps3_1 (F := Ideal)) Wx (Proc.devRef .tc main_v92) = Cert.Arma.relu (F := Ideal) (Wx (Proc.devRef .tc main_v91)) := by
  dsimp only [hostOps3_1]
  after_results_simp
  try simp only [Cert.Lib.TypedRef.ofBuf_toBuf_id]
  first | done | rfl

end Cert.Arma.HostMid

end
-- ==== Proof.KernelValue.lean ====
/-
  The idealized kernel's result is the three layers.

  The program's buffer contents are followed from the launch memory through its fourteen segments — host stretches and
  launches of the dense kernel — at the few buffers that matter: the edge ends and the normalised edge weights (computed
  once, before the first launch, and read by every layer), the stacks of weights and biases, the node features entering
  each launch, and each launch's two results (x · W_init and x · W_root + b, from the launch's own value lemmas).  After
  the last stretch the result buffer holds the third layer's output.
-/
import proofs.«104222_j79053168050941_1_alg».proof.Proof.Gen.KernelIdeal.Frame
import proofs.«104222_j79053168050941_1_alg».proof.Proof.Spec
import proofs.«104222_j79053168050941_1_alg».proof.Proof.Region0
import proofs.«104222_j79053168050941_1_alg».proof.Proof.Region1
import proofs.«104222_j79053168050941_1_alg».proof.Proof.Region2
import proofs.«104222_j79053168050941_1_alg».proof.Proof.HostEntry
import proofs.«104222_j79053168050941_1_alg».proof.Proof.HostMid

set_option maxRecDepth 16384

noncomputable section

namespace Cert.Arma.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The values the program computes, as expressions of the argument arrays -/

/-- The source node of every edge. -/
def eSrc (c : Dev nD) : (⟨Cert.ReferenceIdeal.S800000, .i32⟩ : BufTy).Contents (Elt Ideal) := Cert.Arma.srcOf (F := Ideal) (m ((c.tc : Thread nD τ).loc main_arg1))
/-- The target node of every edge. -/
def eDst (c : Dev nD) : (⟨Cert.ReferenceIdeal.S800000, .i32⟩ : BufTy).Contents (Elt Ideal) := Cert.Arma.dstOf (F := Ideal) (m ((c.tc : Thread nD τ).loc main_arg1))
/-- The normalised edge weights, as the host computes them before the first launch. -/
def eNorm (c : Dev nD) : (⟨Cert.ReferenceIdeal.S800000, .f32⟩ : BufTy).Contents (Elt Ideal) :=
  Cert.Arma.normFrom (F := Ideal) (Cert.Arma.dinvFrom (F := Ideal) (Cert.Arma.posOf (F := Ideal) (eDst m c) (m ((c.tc : Thread nD τ).loc main_arg2))) (Cert.Arma.rsqrtDegOf (F := Ideal) (eDst m c) (m ((c.tc : Thread nD τ).loc main_arg2))) (constant (F := Ideal) Cert.ReferenceIdeal.S_ .f32 0x00000000#32)) (eSrc m c) (eDst m c) (m ((c.tc : Thread nD τ).loc main_arg2))
/-- The node features after the first layer. -/
def x1 (c : Dev nD) : (⟨Cert.ReferenceIdeal.S50000x256, .f32⟩ : BufTy).Contents (Elt Ideal) :=
  Cert.Arma.relu (F := Ideal) (Cert.Arma.preAct (F := Ideal) (eSrc m c) (eDst m c) (eNorm m c) (Cert.Arma.prod (F := Ideal) (m ((c.tc : Thread nD τ).loc main_arg0)) (Cert.Arma.slab0 (F := Ideal) (m ((c.tc : Thread nD τ).loc main_arg3)))) (Cert.Arma.rootPart (F := Ideal) (m ((c.tc : Thread nD τ).loc main_arg0)) (Cert.Arma.slab0 (F := Ideal) (m ((c.tc : Thread nD τ).loc main_arg4))) (Cert.Arma.row0 (F := Ideal) (m ((c.tc : Thread nD τ).loc main_arg5)))))
/-- The node features after the second layer. -/
def x2 (c : Dev nD) : (⟨Cert.ReferenceIdeal.S50000x256, .f32⟩ : BufTy).Contents (Elt Ideal) :=
  Cert.Arma.relu (F := Ideal) (Cert.Arma.preAct (F := Ideal) (eSrc m c) (eDst m c) (eNorm m c) (Cert.Arma.prod (F := Ideal) (x1 m c) (Cert.Arma.slab1 (F := Ideal) (m ((c.tc : Thread nD τ).loc main_arg3)))) (Cert.Arma.rootPart (F := Ideal) (x1 m c) (Cert.Arma.slab1 (F := Ideal) (m ((c.tc : Thread nD τ).loc main_arg4))) (Cert.Arma.row1 (F := Ideal) (m ((c.tc : Thread nD τ).loc main_arg5)))))
/-- The node features after the third layer. -/
def x3 (c : Dev nD) : (⟨Cert.ReferenceIdeal.S50000x256, .f32⟩ : BufTy).Contents (Elt Ideal) :=
  Cert.Arma.relu (F := Ideal) (Cert.Arma.preAct (F := Ideal) (eSrc m c) (eDst m c) (eNorm m c) (Cert.Arma.prod (F := Ideal) (x2 m c) (Cert.Arma.slab2 (F := Ideal) (m ((c.tc : Thread nD τ).loc main_arg3)))) (Cert.Arma.rootPart (F := Ideal) (x2 m c) (Cert.Arma.slab2 (F := Ideal) (m ((c.tc : Thread nD τ).loc main_arg4))) (Cert.Arma.row2 (F := Ideal) (m ((c.tc : Thread nD τ).loc main_arg5)))))

/-- The third layer's output is the three layers of the specification. -/
theorem x3_eq_net (c : Dev nD) : x3 m c = Cert.Arma.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold x3 x2 x1 eNorm eSrc eDst Cert.Arma.net
  simp only [Cert.Arma.layer_eq, Cert.Arma.normOf_eq, Cert.Arma.dinvOf_eq, Cert.Arma.combine]
  first | done | rfl

/-! ## The buffers at each boundary -/

theorem W0_main_arg0 (c : Dev nD) : W0 m ρ c (Proc.devRef .tc main_arg0) = (m ((c.tc : Thread nD τ).loc main_arg0)) := rfl
theorem W0_main_arg1 (c : Dev nD) : W0 m ρ c (Proc.devRef .tc main_arg1) = (m ((c.tc : Thread nD τ).loc main_arg1)) := rfl
theorem W0_main_arg2 (c : Dev nD) : W0 m ρ c (Proc.devRef .tc main_arg2) = (m ((c.tc : Thread nD τ).loc main_arg2)) := rfl
theorem W0_main_arg3 (c : Dev nD) : W0 m ρ c (Proc.devRef .tc main_arg3) = (m ((c.tc : Thread nD τ).loc main_arg3)) := rfl
theorem W0_main_arg4 (c : Dev nD) : W0 m ρ c (Proc.devRef .tc main_arg4) = (m ((c.tc : Thread nD τ).loc main_arg4)) := rfl
theorem W0_main_arg5 (c : Dev nD) : W0 m ρ c (Proc.devRef .tc main_arg5) = (m ((c.tc : Thread nD τ).loc main_arg5)) := rfl

/-! ## Before the first launch -/

theorem W1_main_v1 (c : Dev nD) : W1 m ρ c (Proc.devRef .tc main_v1) = (eSrc m c) := by
  show after (hostOps0 (F := Ideal)) (W0 m ρ c) (Proc.devRef .tc main_v1) = _
  rw [Cert.Arma.HostEntry.first_src]
  rw [W0_main_arg1]
  first | done | rfl
theorem W1_main_v3 (c : Dev nD) : W1 m ρ c (Proc.devRef .tc main_v3) = (eDst m c) := by
  show after (hostOps0 (F := Ideal)) (W0 m ρ c) (Proc.devRef .tc main_v3) = _
  rw [Cert.Arma.HostEntry.first_dst]
  rw [W0_main_arg1]
  first | done | rfl
theorem W1_main_v8 (c : Dev nD) : W1 m ρ c (Proc.devRef .tc main_v8) = (Cert.Arma.posOf (F := Ideal) (eDst m c) (m ((c.tc : Thread nD τ).loc main_arg2))) := by
  show after (hostOps0 (F := Ideal)) (W0 m ρ c) (Proc.devRef .tc main_v8) = _
  rw [Cert.Arma.HostEntry.first_pos]
  rw [W0_main_arg1, W0_main_arg2]
  first | done | rfl
theorem W1_main_v9 (c : Dev nD) : W1 m ρ c (Proc.devRef .tc main_v9) = (Cert.Arma.rsqrtDegOf (F := Ideal) (eDst m c) (m ((c.tc : Thread nD τ).loc main_arg2))) := by
  show after (hostOps0 (F := Ideal)) (W0 m ρ c) (Proc.devRef .tc main_v9) = _
  rw [Cert.Arma.HostEntry.first_rsqrt]
  rw [W0_main_arg1, W0_main_arg2]
  first | done | rfl
theorem W1_main_cst_1 (c : Dev nD) : W1 m ρ c (Proc.devRef .tc main_cst_1) = (constant (F := Ideal) Cert.ReferenceIdeal.S_ .f32 0x00000000#32) := by
  show after (hostOps0 (F := Ideal)) (W0 m ρ c) (Proc.devRef .tc main_cst_1) = _
  rw [Cert.Arma.HostEntry.first_zero]
  first | done | rfl
theorem W1_main_arg0 (c : Dev nD) : W1 m ρ c (Proc.devRef .tc main_arg0) = (m ((c.tc : Thread nD τ).loc main_arg0)) :=
  (Cert.Arma.HostEntry.keep_hostOps0_main_arg0 (W0 m ρ c)).trans (W0_main_arg0 m ρ c)
theorem W1_main_arg2 (c : Dev nD) : W1 m ρ c (Proc.devRef .tc main_arg2) = (m ((c.tc : Thread nD τ).loc main_arg2)) :=
  (Cert.Arma.HostEntry.keep_hostOps0_main_arg2 (W0 m ρ c)).trans (W0_main_arg2 m ρ c)
theorem W1_main_arg3 (c : Dev nD) : W1 m ρ c (Proc.devRef .tc main_arg3) = (m ((c.tc : Thread nD τ).loc main_arg3)) :=
  (Cert.Arma.HostEntry.keep_hostOps0_main_arg3 (W0 m ρ c)).trans (W0_main_arg3 m ρ c)
theorem W1_main_arg4 (c : Dev nD) : W1 m ρ c (Proc.devRef .tc main_arg4) = (m ((c.tc : Thread nD τ).loc main_arg4)) :=
  (Cert.Arma.HostEntry.keep_hostOps0_main_arg4 (W0 m ρ c)).trans (W0_main_arg4 m ρ c)
theorem W1_main_arg5 (c : Dev nD) : W1 m ρ c (Proc.devRef .tc main_arg5) = (m ((c.tc : Thread nD τ).loc main_arg5)) :=
  (Cert.Arma.HostEntry.keep_hostOps0_main_arg5 (W0 m ρ c)).trans (W0_main_arg5 m ρ c)
theorem W2_main_v10 (c : Dev nD) : W2 m ρ c (Proc.devRef .tc main_v10) = (Cert.Arma.dinvFrom (F := Ideal) (Cert.Arma.posOf (F := Ideal) (eDst m c) (m ((c.tc : Thread nD τ).loc main_arg2))) (Cert.Arma.rsqrtDegOf (F := Ideal) (eDst m c) (m ((c.tc : Thread nD τ).loc main_arg2))) (constant (F := Ideal) Cert.ReferenceIdeal.S_ .f32 0x00000000#32)) := by
  show after (hostOps0_1 (F := Ideal)) (W1 m ρ c) (Proc.devRef .tc main_v10) = _
  rw [Cert.Arma.HostEntry.second_dinv]
  rw [W1_main_v8, W1_main_v9, W1_main_cst_1]
  first | done | rfl
theorem W2_main_v1 (c : Dev nD) : W2 m ρ c (Proc.devRef .tc main_v1) = (eSrc m c) :=
  (Cert.Arma.HostEntry.keep_hostOps0_1_main_v1 (W1 m ρ c)).trans (W1_main_v1 m ρ c)
theorem W2_main_v3 (c : Dev nD) : W2 m ρ c (Proc.devRef .tc main_v3) = (eDst m c) :=
  (Cert.Arma.HostEntry.keep_hostOps0_1_main_v3 (W1 m ρ c)).trans (W1_main_v3 m ρ c)
theorem W2_main_arg0 (c : Dev nD) : W2 m ρ c (Proc.devRef .tc main_arg0) = (m ((c.tc : Thread nD τ).loc main_arg0)) :=
  (Cert.Arma.HostEntry.keep_hostOps0_1_main_arg0 (W1 m ρ c)).trans (W1_main_arg0 m ρ c)
theorem W2_main_arg2 (c : Dev nD) : W2 m ρ c (Proc.devRef .tc main_arg2) = (m ((c.tc : Thread nD τ).loc main_arg2)) :=
  (Cert.Arma.HostEntry.keep_hostOps0_1_main_arg2 (W1 m ρ c)).trans (W1_main_arg2 m ρ c)
theorem W2_main_arg3 (c : Dev nD) : W2 m ρ c (Proc.devRef .tc main_arg3) = (m ((c.tc : Thread nD τ).loc main_arg3)) :=
  (Cert.Arma.HostEntry.keep_hostOps0_1_main_arg3 (W1 m ρ c)).trans (W1_main_arg3 m ρ c)
theorem W2_main_arg4 (c : Dev nD) : W2 m ρ c (Proc.devRef .tc main_arg4) = (m ((c.tc : Thread nD τ).loc main_arg4)) :=
  (Cert.Arma.HostEntry.keep_hostOps0_1_main_arg4 (W1 m ρ c)).trans (W1_main_arg4 m ρ c)
theorem W2_main_arg5 (c : Dev nD) : W2 m ρ c (Proc.devRef .tc main_arg5) = (m ((c.tc : Thread nD τ).loc main_arg5)) :=
  (Cert.Arma.HostEntry.keep_hostOps0_1_main_arg5 (W1 m ρ c)).trans (W1_main_arg5 m ρ c)
theorem W3_main_v26 (c : Dev nD) : W3 m ρ c (Proc.devRef .tc main_v26) = (eNorm m c) := by
  show after (hostOps0_2 (F := Ideal)) (W2 m ρ c) (Proc.devRef .tc main_v26) = _
  rw [Cert.Arma.HostEntry.third_norm]
  rw [W2_main_v10, W2_main_v1, W2_main_v3, W2_main_arg2]
  first | done | rfl
theorem W3_main_v28 (c : Dev nD) : W3 m ρ c (Proc.devRef .tc main_v28) = (Cert.Arma.slab0 (F := Ideal) (m ((c.tc : Thread nD τ).loc main_arg3))) := by
  show after (hostOps0_2 (F := Ideal)) (W2 m ρ c) (Proc.devRef .tc main_v28) = _
  rw [Cert.Arma.HostEntry.third_init]
  rw [W2_main_arg3]
  first | done | rfl
theorem W3_main_v30 (c : Dev nD) : W3 m ρ c (Proc.devRef .tc main_v30) = (Cert.Arma.slab0 (F := Ideal) (m ((c.tc : Thread nD τ).loc main_arg4))) := by
  show after (hostOps0_2 (F := Ideal)) (W2 m ρ c) (Proc.devRef .tc main_v30) = _
  rw [Cert.Arma.HostEntry.third_root]
  rw [W2_main_arg4]
  first | done | rfl
theorem W3_main_v32 (c : Dev nD) : W3 m ρ c (Proc.devRef .tc main_v32) = (Cert.Arma.row0 (F := Ideal) (m ((c.tc : Thread nD τ).loc main_arg5))) := by
  show after (hostOps0_2 (F := Ideal)) (W2 m ρ c) (Proc.devRef .tc main_v32) = _
  rw [Cert.Arma.HostEntry.third_bias]
  rw [W2_main_arg5]
  first | done | rfl
theorem W3_main_v1 (c : Dev nD) : W3 m ρ c (Proc.devRef .tc main_v1) = (eSrc m c) :=
  (Cert.Arma.HostEntry.keep_hostOps0_2_main_v1 (W2 m ρ c)).trans (W2_main_v1 m ρ c)
theorem W3_main_v3 (c : Dev nD) : W3 m ρ c (Proc.devRef .tc main_v3) = (eDst m c) :=
  (Cert.Arma.HostEntry.keep_hostOps0_2_main_v3 (W2 m ρ c)).trans (W2_main_v3 m ρ c)
theorem W3_main_arg0 (c : Dev nD) : W3 m ρ c (Proc.devRef .tc main_arg0) = (m ((c.tc : Thread nD τ).loc main_arg0)) :=
  (Cert.Arma.HostEntry.keep_hostOps0_2_main_arg0 (W2 m ρ c)).trans (W2_main_arg0 m ρ c)
theorem W3_main_arg3 (c : Dev nD) : W3 m ρ c (Proc.devRef .tc main_arg3) = (m ((c.tc : Thread nD τ).loc main_arg3)) :=
  (Cert.Arma.HostEntry.keep_hostOps0_2_main_arg3 (W2 m ρ c)).trans (W2_main_arg3 m ρ c)
theorem W3_main_arg4 (c : Dev nD) : W3 m ρ c (Proc.devRef .tc main_arg4) = (m ((c.tc : Thread nD τ).loc main_arg4)) :=
  (Cert.Arma.HostEntry.keep_hostOps0_2_main_arg4 (W2 m ρ c)).trans (W2_main_arg4 m ρ c)
theorem W3_main_arg5 (c : Dev nD) : W3 m ρ c (Proc.devRef .tc main_arg5) = (m ((c.tc : Thread nD τ).loc main_arg5)) :=
  (Cert.Arma.HostEntry.keep_hostOps0_2_main_arg5 (W2 m ρ c)).trans (W2_main_arg5 m ρ c)

/-! ## Launch 0 and the host operations after it -/

theorem W4_main_v33_0 (c : Dev nD) : W4 m ρ c (Proc.devRef .tc main_v33_0) = (Cert.Arma.prod (F := Ideal) (m ((c.tc : Thread nD τ).loc main_arg0)) (Cert.Arma.slab0 (F := Ideal) (m ((c.tc : Thread nD τ).loc main_arg3)))) := by
  refine ((W4_arr m ρ c 4).trans (Cert.Arma.Region0.result_first (V3 m ρ) c)).trans ?_
  show Cert.Arma.prod (F := Ideal) (W3 m ρ c (Proc.devRef .tc main_arg0)) (W3 m ρ c (Proc.devRef .tc main_v28)) = _
  rw [W3_main_arg0, W3_main_v28]
  first | done | rfl
theorem W4_main_v33_1 (c : Dev nD) : W4 m ρ c (Proc.devRef .tc main_v33_1) = (Cert.Arma.rootPart (F := Ideal) (m ((c.tc : Thread nD τ).loc main_arg0)) (Cert.Arma.slab0 (F := Ideal) (m ((c.tc : Thread nD τ).loc main_arg4))) (Cert.Arma.row0 (F := Ideal) (m ((c.tc : Thread nD τ).loc main_arg5)))) := by
  refine ((W4_arr m ρ c 5).trans (Cert.Arma.Region0.result_second (V3 m ρ) c)).trans ?_
  show Cert.Arma.rootPart (F := Ideal) (W3 m ρ c (Proc.devRef .tc main_arg0)) (W3 m ρ c (Proc.devRef .tc main_v30)) (W3 m ρ c (Proc.devRef .tc main_v32)) = _
  rw [W3_main_arg0, W3_main_v30, W3_main_v32]
  first | done | rfl
theorem W4_main_v1 (c : Dev nD) : W4 m ρ c (Proc.devRef .tc main_v1) = (eSrc m c) :=
  (W4_of_ne m ρ c main_v1 (by decide)).trans (W3_main_v1 m ρ c)
theorem W4_main_v3 (c : Dev nD) : W4 m ρ c (Proc.devRef .tc main_v3) = (eDst m c) :=
  (W4_of_ne m ρ c main_v3 (by decide)).trans (W3_main_v3 m ρ c)
theorem W4_main_v26 (c : Dev nD) : W4 m ρ c (Proc.devRef .tc main_v26) = (eNorm m c) :=
  (W4_of_ne m ρ c main_v26 (by decide)).trans (W3_main_v26 m ρ c)
theorem W4_main_arg3 (c : Dev nD) : W4 m ρ c (Proc.devRef .tc main_arg3) = (m ((c.tc : Thread nD τ).loc main_arg3)) :=
  (W4_of_ne m ρ c main_arg3 (by decide)).trans (W3_main_arg3 m ρ c)
theorem W4_main_arg4 (c : Dev nD) : W4 m ρ c (Proc.devRef .tc main_arg4) = (m ((c.tc : Thread nD τ).loc main_arg4)) :=
  (W4_of_ne m ρ c main_arg4 (by decide)).trans (W3_main_arg4 m ρ c)
theorem W4_main_arg5 (c : Dev nD) : W4 m ρ c (Proc.devRef .tc main_arg5) = (m ((c.tc : Thread nD τ).loc main_arg5)) :=
  (W4_of_ne m ρ c main_arg5 (by decide)).trans (W3_main_arg5 m ρ c)
theorem W5_main_v47 (c : Dev nD) : W5 m ρ c (Proc.devRef .tc main_v47) = (Cert.Arma.preAct (F := Ideal) (eSrc m c) (eDst m c) (eNorm m c) (Cert.Arma.prod (F := Ideal) (m ((c.tc : Thread nD τ).loc main_arg0)) (Cert.Arma.slab0 (F := Ideal) (m ((c.tc : Thread nD τ).loc main_arg3)))) (Cert.Arma.rootPart (F := Ideal) (m ((c.tc : Thread nD τ).loc main_arg0)) (Cert.Arma.slab0 (F := Ideal) (m ((c.tc : Thread nD τ).loc main_arg4))) (Cert.Arma.row0 (F := Ideal) (m ((c.tc : Thread nD τ).loc main_arg5))))) := by
  show after (hostOps1 (F := Ideal)) (W4 m ρ c) (Proc.devRef .tc main_v47) = _
  rw [Cert.Arma.HostMid.sum_after0]
  rw [W4_main_v1, W4_main_v3, W4_main_v26, W4_main_v33_0, W4_main_v33_1]
  first | done | rfl
theorem W5_main_v1 (c : Dev nD) : W5 m ρ c (Proc.devRef .tc main_v1) = (eSrc m c) :=
  (Cert.Arma.HostMid.keep_hostOps1_main_v1 (W4 m ρ c)).trans (W4_main_v1 m ρ c)
theorem W5_main_v3 (c : Dev nD) : W5 m ρ c (Proc.devRef .tc main_v3) = (eDst m c) :=
  (Cert.Arma.HostMid.keep_hostOps1_main_v3 (W4 m ρ c)).trans (W4_main_v3 m ρ c)
theorem W5_main_v26 (c : Dev nD) : W5 m ρ c (Proc.devRef .tc main_v26) = (eNorm m c) :=
  (Cert.Arma.HostMid.keep_hostOps1_main_v26 (W4 m ρ c)).trans (W4_main_v26 m ρ c)
theorem W5_main_arg3 (c : Dev nD) : W5 m ρ c (Proc.devRef .tc main_arg3) = (m ((c.tc : Thread nD τ).loc main_arg3)) :=
  (Cert.Arma.HostMid.keep_hostOps1_main_arg3 (W4 m ρ c)).trans (W4_main_arg3 m ρ c)
theorem W5_main_arg4 (c : Dev nD) : W5 m ρ c (Proc.devRef .tc main_arg4) = (m ((c.tc : Thread nD τ).loc main_arg4)) :=
  (Cert.Arma.HostMid.keep_hostOps1_main_arg4 (W4 m ρ c)).trans (W4_main_arg4 m ρ c)
theorem W5_main_arg5 (c : Dev nD) : W5 m ρ c (Proc.devRef .tc main_arg5) = (m ((c.tc : Thread nD τ).loc main_arg5)) :=
  (Cert.Arma.HostMid.keep_hostOps1_main_arg5 (W4 m ρ c)).trans (W4_main_arg5 m ρ c)
theorem W6_main_v48 (c : Dev nD) : W6 m ρ c (Proc.devRef .tc main_v48) = (x1 m c) := by
  show after (hostOps1_1 (F := Ideal)) (W5 m ρ c) (Proc.devRef .tc main_v48) = _
  rw [Cert.Arma.HostMid.relu_after0]
  rw [W5_main_v47]
  first | done | rfl
theorem W6_main_v1 (c : Dev nD) : W6 m ρ c (Proc.devRef .tc main_v1) = (eSrc m c) :=
  (Cert.Arma.HostMid.keep_hostOps1_1_main_v1 (W5 m ρ c)).trans (W5_main_v1 m ρ c)
theorem W6_main_v3 (c : Dev nD) : W6 m ρ c (Proc.devRef .tc main_v3) = (eDst m c) :=
  (Cert.Arma.HostMid.keep_hostOps1_1_main_v3 (W5 m ρ c)).trans (W5_main_v3 m ρ c)
theorem W6_main_v26 (c : Dev nD) : W6 m ρ c (Proc.devRef .tc main_v26) = (eNorm m c) :=
  (Cert.Arma.HostMid.keep_hostOps1_1_main_v26 (W5 m ρ c)).trans (W5_main_v26 m ρ c)
theorem W6_main_arg3 (c : Dev nD) : W6 m ρ c (Proc.devRef .tc main_arg3) = (m ((c.tc : Thread nD τ).loc main_arg3)) :=
  (Cert.Arma.HostMid.keep_hostOps1_1_main_arg3 (W5 m ρ c)).trans (W5_main_arg3 m ρ c)
theorem W6_main_arg4 (c : Dev nD) : W6 m ρ c (Proc.devRef .tc main_arg4) = (m ((c.tc : Thread nD τ).loc main_arg4)) :=
  (Cert.Arma.HostMid.keep_hostOps1_1_main_arg4 (W5 m ρ c)).trans (W5_main_arg4 m ρ c)
theorem W6_main_arg5 (c : Dev nD) : W6 m ρ c (Proc.devRef .tc main_arg5) = (m ((c.tc : Thread nD τ).loc main_arg5)) :=
  (Cert.Arma.HostMid.keep_hostOps1_1_main_arg5 (W5 m ρ c)).trans (W5_main_arg5 m ρ c)
theorem W7_main_v50 (c : Dev nD) : W7 m ρ c (Proc.devRef .tc main_v50) = (Cert.Arma.slab1 (F := Ideal) (m ((c.tc : Thread nD τ).loc main_arg3))) := by
  show after (hostOps1_2 (F := Ideal)) (W6 m ρ c) (Proc.devRef .tc main_v50) = _
  rw [Cert.Arma.HostMid.init_after0]
  rw [W6_main_arg3]
  first | done | rfl
theorem W7_main_v52 (c : Dev nD) : W7 m ρ c (Proc.devRef .tc main_v52) = (Cert.Arma.slab1 (F := Ideal) (m ((c.tc : Thread nD τ).loc main_arg4))) := by
  show after (hostOps1_2 (F := Ideal)) (W6 m ρ c) (Proc.devRef .tc main_v52) = _
  rw [Cert.Arma.HostMid.root_after0]
  rw [W6_main_arg4]
  first | done | rfl
theorem W7_main_v54 (c : Dev nD) : W7 m ρ c (Proc.devRef .tc main_v54) = (Cert.Arma.row1 (F := Ideal) (m ((c.tc : Thread nD τ).loc main_arg5))) := by
  show after (hostOps1_2 (F := Ideal)) (W6 m ρ c) (Proc.devRef .tc main_v54) = _
  rw [Cert.Arma.HostMid.bias_after0]
  rw [W6_main_arg5]
  first | done | rfl
theorem W7_main_v48 (c : Dev nD) : W7 m ρ c (Proc.devRef .tc main_v48) = (x1 m c) :=
  (Cert.Arma.HostMid.keep_hostOps1_2_main_v48 (W6 m ρ c)).trans (W6_main_v48 m ρ c)
theorem W7_main_v1 (c : Dev nD) : W7 m ρ c (Proc.devRef .tc main_v1) = (eSrc m c) :=
  (Cert.Arma.HostMid.keep_hostOps1_2_main_v1 (W6 m ρ c)).trans (W6_main_v1 m ρ c)
theorem W7_main_v3 (c : Dev nD) : W7 m ρ c (Proc.devRef .tc main_v3) = (eDst m c) :=
  (Cert.Arma.HostMid.keep_hostOps1_2_main_v3 (W6 m ρ c)).trans (W6_main_v3 m ρ c)
theorem W7_main_v26 (c : Dev nD) : W7 m ρ c (Proc.devRef .tc main_v26) = (eNorm m c) :=
  (Cert.Arma.HostMid.keep_hostOps1_2_main_v26 (W6 m ρ c)).trans (W6_main_v26 m ρ c)
theorem W7_main_arg3 (c : Dev nD) : W7 m ρ c (Proc.devRef .tc main_arg3) = (m ((c.tc : Thread nD τ).loc main_arg3)) :=
  (Cert.Arma.HostMid.keep_hostOps1_2_main_arg3 (W6 m ρ c)).trans (W6_main_arg3 m ρ c)
theorem W7_main_arg4 (c : Dev nD) : W7 m ρ c (Proc.devRef .tc main_arg4) = (m ((c.tc : Thread nD τ).loc main_arg4)) :=
  (Cert.Arma.HostMid.keep_hostOps1_2_main_arg4 (W6 m ρ c)).trans (W6_main_arg4 m ρ c)
theorem W7_main_arg5 (c : Dev nD) : W7 m ρ c (Proc.devRef .tc main_arg5) = (m ((c.tc : Thread nD τ).loc main_arg5)) :=
  (Cert.Arma.HostMid.keep_hostOps1_2_main_arg5 (W6 m ρ c)).trans (W6_main_arg5 m ρ c)

/-! ## Launch 1 and the host operations after it -/

theorem W8_main_v55_0 (c : Dev nD) : W8 m ρ c (Proc.devRef .tc main_v55_0) = (Cert.Arma.prod (F := Ideal) (x1 m c) (Cert.Arma.slab1 (F := Ideal) (m ((c.tc : Thread nD τ).loc main_arg3)))) := by
  refine ((W8_arr m ρ c 4).trans (Cert.Arma.Region1.result_first (V7 m ρ) c)).trans ?_
  show Cert.Arma.prod (F := Ideal) (W7 m ρ c (Proc.devRef .tc main_v48)) (W7 m ρ c (Proc.devRef .tc main_v50)) = _
  rw [W7_main_v48, W7_main_v50]
  first | done | rfl
theorem W8_main_v55_1 (c : Dev nD) : W8 m ρ c (Proc.devRef .tc main_v55_1) = (Cert.Arma.rootPart (F := Ideal) (x1 m c) (Cert.Arma.slab1 (F := Ideal) (m ((c.tc : Thread nD τ).loc main_arg4))) (Cert.Arma.row1 (F := Ideal) (m ((c.tc : Thread nD τ).loc main_arg5)))) := by
  refine ((W8_arr m ρ c 5).trans (Cert.Arma.Region1.result_second (V7 m ρ) c)).trans ?_
  show Cert.Arma.rootPart (F := Ideal) (W7 m ρ c (Proc.devRef .tc main_v48)) (W7 m ρ c (Proc.devRef .tc main_v52)) (W7 m ρ c (Proc.devRef .tc main_v54)) = _
  rw [W7_main_v48, W7_main_v52, W7_main_v54]
  first | done | rfl
theorem W8_main_v1 (c : Dev nD) : W8 m ρ c (Proc.devRef .tc main_v1) = (eSrc m c) :=
  (W8_of_ne m ρ c main_v1 (by decide)).trans (W7_main_v1 m ρ c)
theorem W8_main_v3 (c : Dev nD) : W8 m ρ c (Proc.devRef .tc main_v3) = (eDst m c) :=
  (W8_of_ne m ρ c main_v3 (by decide)).trans (W7_main_v3 m ρ c)
theorem W8_main_v26 (c : Dev nD) : W8 m ρ c (Proc.devRef .tc main_v26) = (eNorm m c) :=
  (W8_of_ne m ρ c main_v26 (by decide)).trans (W7_main_v26 m ρ c)
theorem W8_main_arg3 (c : Dev nD) : W8 m ρ c (Proc.devRef .tc main_arg3) = (m ((c.tc : Thread nD τ).loc main_arg3)) :=
  (W8_of_ne m ρ c main_arg3 (by decide)).trans (W7_main_arg3 m ρ c)
theorem W8_main_arg4 (c : Dev nD) : W8 m ρ c (Proc.devRef .tc main_arg4) = (m ((c.tc : Thread nD τ).loc main_arg4)) :=
  (W8_of_ne m ρ c main_arg4 (by decide)).trans (W7_main_arg4 m ρ c)
theorem W8_main_arg5 (c : Dev nD) : W8 m ρ c (Proc.devRef .tc main_arg5) = (m ((c.tc : Thread nD τ).loc main_arg5)) :=
  (W8_of_ne m ρ c main_arg5 (by decide)).trans (W7_main_arg5 m ρ c)
theorem W9_main_v69 (c : Dev nD) : W9 m ρ c (Proc.devRef .tc main_v69) = (Cert.Arma.preAct (F := Ideal) (eSrc m c) (eDst m c) (eNorm m c) (Cert.Arma.prod (F := Ideal) (x1 m c) (Cert.Arma.slab1 (F := Ideal) (m ((c.tc : Thread nD τ).loc main_arg3)))) (Cert.Arma.rootPart (F := Ideal) (x1 m c) (Cert.Arma.slab1 (F := Ideal) (m ((c.tc : Thread nD τ).loc main_arg4))) (Cert.Arma.row1 (F := Ideal) (m ((c.tc : Thread nD τ).loc main_arg5))))) := by
  show after (hostOps2 (F := Ideal)) (W8 m ρ c) (Proc.devRef .tc main_v69) = _
  rw [Cert.Arma.HostMid.sum_after1]
  rw [W8_main_v1, W8_main_v3, W8_main_v26, W8_main_v55_0, W8_main_v55_1]
  first | done | rfl
theorem W9_main_v1 (c : Dev nD) : W9 m ρ c (Proc.devRef .tc main_v1) = (eSrc m c) :=
  (Cert.Arma.HostMid.keep_hostOps2_main_v1 (W8 m ρ c)).trans (W8_main_v1 m ρ c)
theorem W9_main_v3 (c : Dev nD) : W9 m ρ c (Proc.devRef .tc main_v3) = (eDst m c) :=
  (Cert.Arma.HostMid.keep_hostOps2_main_v3 (W8 m ρ c)).trans (W8_main_v3 m ρ c)
theorem W9_main_v26 (c : Dev nD) : W9 m ρ c (Proc.devRef .tc main_v26) = (eNorm m c) :=
  (Cert.Arma.HostMid.keep_hostOps2_main_v26 (W8 m ρ c)).trans (W8_main_v26 m ρ c)
theorem W9_main_arg3 (c : Dev nD) : W9 m ρ c (Proc.devRef .tc main_arg3) = (m ((c.tc : Thread nD τ).loc main_arg3)) :=
  (Cert.Arma.HostMid.keep_hostOps2_main_arg3 (W8 m ρ c)).trans (W8_main_arg3 m ρ c)
theorem W9_main_arg4 (c : Dev nD) : W9 m ρ c (Proc.devRef .tc main_arg4) = (m ((c.tc : Thread nD τ).loc main_arg4)) :=
  (Cert.Arma.HostMid.keep_hostOps2_main_arg4 (W8 m ρ c)).trans (W8_main_arg4 m ρ c)
theorem W9_main_arg5 (c : Dev nD) : W9 m ρ c (Proc.devRef .tc main_arg5) = (m ((c.tc : Thread nD τ).loc main_arg5)) :=
  (Cert.Arma.HostMid.keep_hostOps2_main_arg5 (W8 m ρ c)).trans (W8_main_arg5 m ρ c)
theorem W10_main_v70 (c : Dev nD) : W10 m ρ c (Proc.devRef .tc main_v70) = (x2 m c) := by
  show after (hostOps2_1 (F := Ideal)) (W9 m ρ c) (Proc.devRef .tc main_v70) = _
  rw [Cert.Arma.HostMid.relu_after1]
  rw [W9_main_v69]
  first | done | rfl
theorem W10_main_v1 (c : Dev nD) : W10 m ρ c (Proc.devRef .tc main_v1) = (eSrc m c) :=
  (Cert.Arma.HostMid.keep_hostOps2_1_main_v1 (W9 m ρ c)).trans (W9_main_v1 m ρ c)
theorem W10_main_v3 (c : Dev nD) : W10 m ρ c (Proc.devRef .tc main_v3) = (eDst m c) :=
  (Cert.Arma.HostMid.keep_hostOps2_1_main_v3 (W9 m ρ c)).trans (W9_main_v3 m ρ c)
theorem W10_main_v26 (c : Dev nD) : W10 m ρ c (Proc.devRef .tc main_v26) = (eNorm m c) :=
  (Cert.Arma.HostMid.keep_hostOps2_1_main_v26 (W9 m ρ c)).trans (W9_main_v26 m ρ c)
theorem W10_main_arg3 (c : Dev nD) : W10 m ρ c (Proc.devRef .tc main_arg3) = (m ((c.tc : Thread nD τ).loc main_arg3)) :=
  (Cert.Arma.HostMid.keep_hostOps2_1_main_arg3 (W9 m ρ c)).trans (W9_main_arg3 m ρ c)
theorem W10_main_arg4 (c : Dev nD) : W10 m ρ c (Proc.devRef .tc main_arg4) = (m ((c.tc : Thread nD τ).loc main_arg4)) :=
  (Cert.Arma.HostMid.keep_hostOps2_1_main_arg4 (W9 m ρ c)).trans (W9_main_arg4 m ρ c)
theorem W10_main_arg5 (c : Dev nD) : W10 m ρ c (Proc.devRef .tc main_arg5) = (m ((c.tc : Thread nD τ).loc main_arg5)) :=
  (Cert.Arma.HostMid.keep_hostOps2_1_main_arg5 (W9 m ρ c)).trans (W9_main_arg5 m ρ c)
theorem W11_main_v72 (c : Dev nD) : W11 m ρ c (Proc.devRef .tc main_v72) = (Cert.Arma.slab2 (F := Ideal) (m ((c.tc : Thread nD τ).loc main_arg3))) := by
  show after (hostOps2_2 (F := Ideal)) (W10 m ρ c) (Proc.devRef .tc main_v72) = _
  rw [Cert.Arma.HostMid.init_after1]
  rw [W10_main_arg3]
  first | done | rfl
theorem W11_main_v74 (c : Dev nD) : W11 m ρ c (Proc.devRef .tc main_v74) = (Cert.Arma.slab2 (F := Ideal) (m ((c.tc : Thread nD τ).loc main_arg4))) := by
  show after (hostOps2_2 (F := Ideal)) (W10 m ρ c) (Proc.devRef .tc main_v74) = _
  rw [Cert.Arma.HostMid.root_after1]
  rw [W10_main_arg4]
  first | done | rfl
theorem W11_main_v76 (c : Dev nD) : W11 m ρ c (Proc.devRef .tc main_v76) = (Cert.Arma.row2 (F := Ideal) (m ((c.tc : Thread nD τ).loc main_arg5))) := by
  show after (hostOps2_2 (F := Ideal)) (W10 m ρ c) (Proc.devRef .tc main_v76) = _
  rw [Cert.Arma.HostMid.bias_after1]
  rw [W10_main_arg5]
  first | done | rfl
theorem W11_main_v70 (c : Dev nD) : W11 m ρ c (Proc.devRef .tc main_v70) = (x2 m c) :=
  (Cert.Arma.HostMid.keep_hostOps2_2_main_v70 (W10 m ρ c)).trans (W10_main_v70 m ρ c)
theorem W11_main_v1 (c : Dev nD) : W11 m ρ c (Proc.devRef .tc main_v1) = (eSrc m c) :=
  (Cert.Arma.HostMid.keep_hostOps2_2_main_v1 (W10 m ρ c)).trans (W10_main_v1 m ρ c)
theorem W11_main_v3 (c : Dev nD) : W11 m ρ c (Proc.devRef .tc main_v3) = (eDst m c) :=
  (Cert.Arma.HostMid.keep_hostOps2_2_main_v3 (W10 m ρ c)).trans (W10_main_v3 m ρ c)
theorem W11_main_v26 (c : Dev nD) : W11 m ρ c (Proc.devRef .tc main_v26) = (eNorm m c) :=
  (Cert.Arma.HostMid.keep_hostOps2_2_main_v26 (W10 m ρ c)).trans (W10_main_v26 m ρ c)

/-! ## Launch 2 and the host operations after it -/

theorem W12_main_v77_0 (c : Dev nD) : W12 m ρ c (Proc.devRef .tc main_v77_0) = (Cert.Arma.prod (F := Ideal) (x2 m c) (Cert.Arma.slab2 (F := Ideal) (m ((c.tc : Thread nD τ).loc main_arg3)))) := by
  refine ((W12_arr m ρ c 4).trans (Cert.Arma.Region2.result_first (V11 m ρ) c)).trans ?_
  show Cert.Arma.prod (F := Ideal) (W11 m ρ c (Proc.devRef .tc main_v70)) (W11 m ρ c (Proc.devRef .tc main_v72)) = _
  rw [W11_main_v70, W11_main_v72]
  first | done | rfl
theorem W12_main_v77_1 (c : Dev nD) : W12 m ρ c (Proc.devRef .tc main_v77_1) = (Cert.Arma.rootPart (F := Ideal) (x2 m c) (Cert.Arma.slab2 (F := Ideal) (m ((c.tc : Thread nD τ).loc main_arg4))) (Cert.Arma.row2 (F := Ideal) (m ((c.tc : Thread nD τ).loc main_arg5)))) := by
  refine ((W12_arr m ρ c 5).trans (Cert.Arma.Region2.result_second (V11 m ρ) c)).trans ?_
  show Cert.Arma.rootPart (F := Ideal) (W11 m ρ c (Proc.devRef .tc main_v70)) (W11 m ρ c (Proc.devRef .tc main_v74)) (W11 m ρ c (Proc.devRef .tc main_v76)) = _
  rw [W11_main_v70, W11_main_v74, W11_main_v76]
  first | done | rfl
theorem W12_main_v1 (c : Dev nD) : W12 m ρ c (Proc.devRef .tc main_v1) = (eSrc m c) :=
  (W12_of_ne m ρ c main_v1 (by decide)).trans (W11_main_v1 m ρ c)
theorem W12_main_v3 (c : Dev nD) : W12 m ρ c (Proc.devRef .tc main_v3) = (eDst m c) :=
  (W12_of_ne m ρ c main_v3 (by decide)).trans (W11_main_v3 m ρ c)
theorem W12_main_v26 (c : Dev nD) : W12 m ρ c (Proc.devRef .tc main_v26) = (eNorm m c) :=
  (W12_of_ne m ρ c main_v26 (by decide)).trans (W11_main_v26 m ρ c)
theorem W13_main_v91 (c : Dev nD) : W13 m ρ c (Proc.devRef .tc main_v91) = (Cert.Arma.preAct (F := Ideal) (eSrc m c) (eDst m c) (eNorm m c) (Cert.Arma.prod (F := Ideal) (x2 m c) (Cert.Arma.slab2 (F := Ideal) (m ((c.tc : Thread nD τ).loc main_arg3)))) (Cert.Arma.rootPart (F := Ideal) (x2 m c) (Cert.Arma.slab2 (F := Ideal) (m ((c.tc : Thread nD τ).loc main_arg4))) (Cert.Arma.row2 (F := Ideal) (m ((c.tc : Thread nD τ).loc main_arg5))))) := by
  show after (hostOps3 (F := Ideal)) (W12 m ρ c) (Proc.devRef .tc main_v91) = _
  rw [Cert.Arma.HostMid.sum_after2]
  rw [W12_main_v1, W12_main_v3, W12_main_v26, W12_main_v77_0, W12_main_v77_1]
  first | done | rfl
theorem W14_main_v92 (c : Dev nD) : W14 m ρ c (Proc.devRef .tc main_v92) = (x3 m c) := by
  show after (hostOps3_1 (F := Ideal)) (W13 m ρ c) (Proc.devRef .tc main_v92) = _
  rw [Cert.Arma.HostMid.relu_after2]
  rw [W13_main_v91]
  first | done | rfl

/-- After the last stretch the result buffer holds the three layers of the argument arrays. -/
theorem result_eq_net (c : Dev nD) :
    W14 m ρ c (Proc.devRef .tc main_v92) = Cert.Arma.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W14_main_v92 m ρ c).trans (x3_eq_net m c)

end Cert.Arma.KernelValue

end
-- ==== Proof.RefNet.lean ====
/-
  The reference program is the three layers.

  Each layer of the reference program is, operation by operation, one layer with the bias added last, applied to
  the previous layer's result; it computes the edge normalisation anew in every layer, by the same expression.
  Regrouping the sum in each layer (the extended reals are associative under addition) gives the three layers of
  the specification.
-/
import proofs.«104222_j79053168050941_1_alg».proof.Proof.Gen.ReferenceIdeal.Read
import proofs.«104222_j79053168050941_1_alg».proof.Proof.Spec

noncomputable section

namespace Cert.Arma.RefSide

open Idealize.ShloMosaic Cert.ReferenceIdeal Cert.ReferenceIdeal.Gen Cert.ReferenceIdeal.Read Cert.Arma

variable {F : FTy → Type} [FloatOps F]

/-- The edge normalisation as the first layer computes it. -/
theorem norm_first (x1 : (⟨S2x800000, .i32⟩ : BufTy).Contents (Elt F)) (x2 : (⟨S800000, .f32⟩ : BufTy).Contents (Elt F)) :
    val_main_v32 (F := F) x1 x2 = normOf (srcOf x1) (dstOf x1) x2 := rfl

/-- The edge normalisation as the second layer computes it: the same expression. -/
theorem norm_second (x1 : (⟨S2x800000, .i32⟩ : BufTy).Contents (Elt F)) (x2 : (⟨S800000, .f32⟩ : BufTy).Contents (Elt F)) :
    val_main_v81 (F := F) x1 x2 = normOf (srcOf x1) (dstOf x1) x2 := rfl

/-- The edge normalisation as the third layer computes it: the same expression. -/
theorem norm_third (x1 : (⟨S2x800000, .i32⟩ : BufTy).Contents (Elt F)) (x2 : (⟨S800000, .f32⟩ : BufTy).Contents (Elt F)) :
    val_main_v130 (F := F) x1 x2 = normOf (srcOf x1) (dstOf x1) x2 := rfl

/-- The first layer's result. -/
theorem layer_first (x0 : (⟨S50000x256, .f32⟩ : BufTy).Contents (Elt F)) (x1 : (⟨S2x800000, .i32⟩ : BufTy).Contents (Elt F)) (x2 : (⟨S800000, .f32⟩ : BufTy).Contents (Elt F)) (x3 x4 : (⟨S3x256x256, .f32⟩ : BufTy).Contents (Elt F)) (x5 : (⟨S3x256, .f32⟩ : BufTy).Contents (Elt F)) :
    val_main_v52 (F := F) x0 x1 x2 x3 x4 x5
      = layerBiasLast (srcOf x1) (dstOf x1) (normOf (srcOf x1) (dstOf x1) x2) x0 (slab0 x3) (slab0 x4) (row0 x5) := rfl

/-- The second layer's result, from the first's. -/
theorem layer_second (x0 : (⟨S50000x256, .f32⟩ : BufTy).Contents (Elt F)) (x1 : (⟨S2x800000, .i32⟩ : BufTy).Contents (Elt F)) (x2 : (⟨S800000, .f32⟩ : BufTy).Contents (Elt F)) (x3 x4 : (⟨S3x256x256, .f32⟩ : BufTy).Contents (Elt F)) (x5 : (⟨S3x256, .f32⟩ : BufTy).Contents (Elt F)) :
    val_main_v101 (F := F) x0 x1 x2 x3 x4 x5
      = layerBiasLast (srcOf x1) (dstOf x1) (normOf (srcOf x1) (dstOf x1) x2) (val_main_v52 (F := F) x0 x1 x2 x3 x4 x5)
          (slab1 x3) (slab1 x4) (row1 x5) := rfl

/-- The third layer's result, from the second's. -/
theorem layer_third (x0 : (⟨S50000x256, .f32⟩ : BufTy).Contents (Elt F)) (x1 : (⟨S2x800000, .i32⟩ : BufTy).Contents (Elt F)) (x2 : (⟨S800000, .f32⟩ : BufTy).Contents (Elt F)) (x3 x4 : (⟨S3x256x256, .f32⟩ : BufTy).Contents (Elt F)) (x5 : (⟨S3x256, .f32⟩ : BufTy).Contents (Elt F)) :
    val_main_v150 (F := F) x0 x1 x2 x3 x4 x5
      = layerBiasLast (srcOf x1) (dstOf x1) (normOf (srcOf x1) (dstOf x1) x2) (val_main_v101 (F := F) x0 x1 x2 x3 x4 x5)
          (slab2 x3) (slab2 x4) (row2 x5) := rfl

/-- On the extended reals the reference program's result is the three layers of the specification. -/
theorem result_eq_net (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 x4 : (⟨S3x256x256, .f32⟩ : BufTy).Contents (Elt Ideal)) (x5 : (⟨S3x256, .f32⟩ : BufTy).Contents (Elt Ideal)) :
    val_main_v150 (F := Ideal) x0 x1 x2 x3 x4 x5 = net x0 x1 x2 x3 x4 x5 := by
  rw [layer_third, layer_second, layer_first, layerBiasLast_eq, layerBiasLast_eq, layerBiasLast_eq]
  rfl

end Cert.Arma.RefSide

end
-- ==== Proof.lean ====
/-
  Three stacked graph-convolution layers: a kernel that computes each layer's two matrix products (and adds the bias)
  on blocks of 2000 rows, with the message passing on the host, against the plain reference.

  On the extended reals both programs compute, three times over,
      x  ↦  relu( A · (x · W_init) + x · W_root + b ),
  A the edge-normalised adjacency (Proof/Spec.lean).  The reference is that expression operation by operation, the bias
  added last and the edge normalisation recomputed in every layer (Proof/RefNet.lean).  The kernel program computes the
  normalisation once; each launch leaves  x · W_init  and  x · W_root + b  as whole arrays, because entry (p, q) of a
  block of rows times a weight is the same sum over the contracted coordinate as the entry of the whole product and
  the 25 blocks cover every row (Proof/Region0.lean, Region1.lean, Region2.lean); the host operations around the launches are
  the reference's own (Proof/HostEntry.lean, HostMid.lean), and following the buffers through the program gives the same
  three layers with  A·h + (x·W_root + b)  in place of  (A·h + x·W_root) + b  (Proof/KernelValue.lean).  The two groupings
  agree because addition of extended reals is associative; no other law is used, so the finiteness of the inputs is
  never needed.  The kernel's idealization rewrote no operation, so there is nothing to preserve.
-/
import proofs.«104222_j79053168050941_1_alg».proof.Defs
import proofs.«104222_j79053168050941_1_alg».proof.Proof.Gen.Kernel
import proofs.«104222_j79053168050941_1_alg».proof.Proof.Gen.Kernel.Frame
import proofs.«104222_j79053168050941_1_alg».proof.Proof.Gen.KernelIdeal
import proofs.«104222_j79053168050941_1_alg».proof.Proof.Gen.KernelIdeal.Frame
import proofs.«104222_j79053168050941_1_alg».proof.Proof.Gen.ReferenceIdeal
import proofs.«104222_j79053168050941_1_alg».proof.Proof.Gen.Pre_finite_inputs
import proofs.«104222_j79053168050941_1_alg».proof.Proof.Gen.ReferenceIdeal.Run
import proofs.«104222_j79053168050941_1_alg».proof.Proof.Gen.ReferenceIdeal.Read
import proofs.«104222_j79053168050941_1_alg».proof.Proof.KernelRun
import proofs.«104222_j79053168050941_1_alg».proof.Proof.KernelValue
import proofs.«104222_j79053168050941_1_alg».proof.Proof.RefNet
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the three layers of those arguments in
    their result buffers. -/
theorem algebraic : Cert.algebraic_KernelIdeal_ReferenceIdeal := by
  intro m ρ m' ρ' _ hagree
  refine ⟨fun c => Cert.Arma.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Arma.KernelValue.result_eq_net m ρ c), (h c).2⟩)
      (Cert.Arma.KernelRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v150_eq, Cert.Arma.RefSide.result_eq_net, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
